-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v155)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v155) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x3000 : Shape := ⟨2, ![20000, 3000]⟩
abbrev S2x100000 : Shape := ⟨2, ![2, 100000]⟩
abbrev S3000x2000 : Shape := ⟨2, ![3000, 2000]⟩
abbrev S2000 : Shape := ⟨1, ![2000]⟩
abbrev S2000x500 : Shape := ⟨2, ![2000, 500]⟩
abbrev S500 : Shape := ⟨1, ![500]⟩
abbrev S500x100 : Shape := ⟨2, ![500, 100]⟩
abbrev S100 : Shape := ⟨1, ![100]⟩
abbrev S100x2 : Shape := ⟨2, ![100, 2]⟩
abbrev S2 : Shape := ⟨1, ![2]⟩
abbrev S_ : Shape := ⟨0, ![]⟩

class Facts : Prop where
  bcast_S_S20000x3000 : S_.BroadcastsInDim S20000x3000 (![] : Fin 0 → Fin S20000x3000.rank)
  reducesTo_S20000x3000_S_d0_1 : S20000x3000.ReducesTo [0, 1] S_
  h_S_ : 0 < S_.numel
  bcast_S_S3000x2000 : S_.BroadcastsInDim S3000x2000 (![] : Fin 0 → Fin S3000x2000.rank)
  reducesTo_S3000x2000_S_d0_1 : S3000x2000.ReducesTo [0, 1] S_
  bcast_S_S2000 : S_.BroadcastsInDim S2000 (![] : Fin 0 → Fin S2000.rank)
  reducesTo_S2000_S_d0 : S2000.ReducesTo [0] S_
  bcast_S_S2000x500 : S_.BroadcastsInDim S2000x500 (![] : Fin 0 → Fin S2000x500.rank)
  reducesTo_S2000x500_S_d0_1 : S2000x500.ReducesTo [0, 1] S_
  bcast_S_S500 : S_.BroadcastsInDim S500 (![] : Fin 0 → Fin S500.rank)
  reducesTo_S500_S_d0 : S500.ReducesTo [0] S_
  bcast_S_S500x100 : S_.BroadcastsInDim S500x100 (![] : Fin 0 → Fin S500x100.rank)
  reducesTo_S500x100_S_d0_1 : S500x100.ReducesTo [0, 1] S_
  bcast_S_S100 : S_.BroadcastsInDim S100 (![] : Fin 0 → Fin S100.rank)
  reducesTo_S100_S_d0 : S100.ReducesTo [0] S_
  bcast_S_S100x2 : S_.BroadcastsInDim S100x2 (![] : Fin 0 → Fin S100x2.rank)
  reducesTo_S100x2_S_d0_1 : S100x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S100x2 .f32) (main_arg9 : FVec F S2 .f32) (main_v33 : IVec S_ 1) : IVec S_ 1 :=
  let main_v34 : FVec F S100x2 .f32 := Host.absf main_arg8
  let main_cst_12 : FVec F S_ .f32 := constant S_ .f32 0x7F800000#32
  let main_v35 : FVec F S100x2 .f32 := broadcastInDim S100x2 ![] bcast_S_S100x2 main_cst_12
  let main_v36 : IVec S100x2 1 := cmpf .olt main_v34 main_v35
  let main_c_13 : IVec S_ 1 := constantI S_ 1 1#1
  let main_v37 : IVec S_ 1 := (fun x v => Host.reduce IntOp.andi x v reducesTo_S100x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S500 .f32) (main_arg6 : FVec F S500x100 .f32) (main_arg7 : FVec F S100 .f32) (main_arg8 : FVec F S100x2 .f32) (main_arg9 : FVec F S2 .f32) (main_v13 : IVec S_ 1) (main_v16 : IVec S2000x500 1) : IVec S_ 1 :=
  let main_c_5 : IVec S_ 1 := constantI S_ 1 1#1
  let main_v17 : IVec S_ 1 := (fun x v => Host.reduce IntOp.andi x v reducesTo_S2000x500_S_d0_1 h_S_) main_v16 main_c_5
  let main_v18 : IVec S_ 1 := andi main_v13 main_v17
  let main_v19 : FVec F S500 .f32 := Host.absf main_arg5
  let main_cst_6 : FVec F S_ .f32 := constant S_ .f32 0x7F800000#32
  let main_v20 : FVec F S500 .f32 := broadcastInDim S500 ![] bcast_S_S500 main_cst_6
  let main_v21 : IVec S500 1 := cmpf .olt main_v19 main_v20
  let main_c_7 : IVec S_ 1 := constantI S_ 1 1#1
  let main_v22 : IVec S_ 1 := (fun x v => Host.reduce IntOp.andi x v reducesTo_S500_S_d0 h_S_) main_v21 main_c_7
  let main_v23 : IVec S_ 1 := andi main_v18 main_v22
  let main_v24 : FVec F S500x100 .f32 := Host.absf main_arg6
  let main_cst_8 : FVec F S_ .f32 := constant S_ .f32 0x7F800000#32
  let main_v25 : FVec F S500x100 .f32 := broadcastInDim S500x100 ![] bcast_S_S500x100 main_cst_8
  let main_v26 : IVec S500x100 1 := cmpf .olt main_v24 main_v25
  let main_c_9 : IVec S_ 1 := constantI S_ 1 1#1
  let main_v27 : IVec S_ 1 := (fun x v => Host.reduce IntOp.andi x v reducesTo_S500x100_S_d0_1 h_S_) main_v26 main_c_9
  let main_v28 : IVec S_ 1 := andi main_v23 main_v27
  let main_v29 : FVec F S100 .f32 := Host.absf main_arg7
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg8 main_arg9 main_v33

def fn {F : FTy → Type} [FloatOps F] (main_arg0 : FVec F S20000x3000 .f32) (main_arg1 : IVec S2x100000 32) (main_arg2 : FVec F S3000x2000 .f32) (main_arg3 : FVec F S2000 .f32) (main_arg4 : FVec F S2000x500 .f32) (main_arg5 : FVec F S500 .f32) (main_arg6 : FVec F S500x100 .f32) (main_arg7 : FVec F S100 .f32) (main_arg8 : FVec F S100x2 .f32) (main_arg9 : FVec F S2 .f32) : IVec S_ 1 :=
  let main_v0 : FVec F S20000x3000 .f32 := Host.absf main_arg0
  let main_cst : FVec F S_ .f32 := constant S_ .f32 0x7F800000#32
  let main_v1 : FVec F S20000x3000 .f32 := broadcastInDim S20000x3000 ![] bcast_S_S20000x3000 main_cst
  let main_v2 : IVec S20000x3000 1 := cmpf .olt main_v0 main_v1
  let main_c : IVec S_ 1 := constantI S_ 1 1#1
  let main_v3 : IVec S_ 1 := (fun x v => Host.reduce IntOp.andi x v reducesTo_S20000x3000_S_d0_1 h_S_) main_v2 main_c
  let main_v4 : FVec F S3000x2000 .f32 := Host.absf main_arg2
  let main_cst_0 : FVec F S_ .f32 := constant S_ .f32 0x7F800000#32
  let main_v5 : FVec F S3000x2000 .f32 := broadcastInDim S3000x2000 ![] bcast_S_S3000x2000 main_cst_0
  let main_v6 : IVec S3000x2000 1 := cmpf .olt main_v4 main_v5
  let main_c_1 : IVec S_ 1 := constantI S_ 1 1#1
  let main_v7 : IVec S_ 1 := (fun x v => Host.reduce IntOp.andi x v reducesTo_S3000x2000_S_d0_1 h_S_) main_v6 main_c_1
  let main_v8 : IVec S_ 1 := andi main_v3 main_v7
  let main_v9 : FVec F S2000 .f32 := Host.absf main_arg3
  let main_cst_2 : FVec F S_ .f32 := constant S_ .f32 0x7F800000#32
  let main_v10 : FVec F S2000 .f32 := broadcastInDim S2000 ![] bcast_S_S2000 main_cst_2
  let main_v11 : IVec S2000 1 := cmpf .olt main_v9 main_v10
  let main_c_3 : IVec S_ 1 := constantI S_ 1 1#1
  let main_v12 : IVec S_ 1 := (fun x v => Host.reduce IntOp.andi x v reducesTo_S2000_S_d0 h_S_) main_v11 main_c_3
  let main_v13 : IVec S_ 1 := andi main_v8 main_v12
  let main_v14 : FVec F S2000x500 .f32 := Host.absf main_arg4
  let main_cst_4 : FVec F S_ .f32 := constant S_ .f32 0x7F800000#32
  let main_v15 : FVec F S2000x500 .f32 := broadcastInDim S2000x500 ![] bcast_S_S2000x500 main_cst_4
  let main_v16 : IVec S2000x500 1 := cmpf .olt main_v14 main_v15
  fn_part1 (F := F) main_arg5 main_arg6 main_arg7 main_arg8 main_arg9 main_v13 main_v16
-- ==== Kernel.lean ====
abbrev S20000x3000 : Shape := ⟨2, ![20000, 3000]⟩
abbrev S2x100000 : Shape := ⟨2, ![2, 100000]⟩
abbrev S3000x2000 : Shape := ⟨2, ![3000, 2000]⟩
abbrev S2000 : Shape := ⟨1, ![2000]⟩
abbrev S2000x500 : Shape := ⟨2, ![2000, 500]⟩
abbrev S500 : Shape := ⟨1, ![500]⟩
abbrev S500x100 : Shape := ⟨2, ![500, 100]⟩
abbrev S100 : Shape := ⟨1, ![100]⟩
abbrev S100x2 : Shape := ⟨2, ![100, 2]⟩
abbrev S2 : Shape := ⟨1, ![2]⟩
abbrev S20000 : Shape := ⟨1, ![20000]⟩
abbrev S1x100000 : Shape := ⟨2, ![1, 100000]⟩
abbrev S100000 : Shape := ⟨1, ![100000]⟩
abbrev S120000 : Shape := ⟨1, ![120000]⟩
abbrev S_ : Shape := ⟨0, ![]⟩
abbrev S120000x1 : Shape := ⟨2, ![120000, 1]⟩
abbrev S20000x2000 : Shape := ⟨2, ![20000, 2000]⟩
abbrev S800x3000 : Shape := ⟨2, ![800, 3000]⟩
abbrev S800x2000 : Shape := ⟨2, ![800, 2000]⟩
abbrev S120000x2000 : Shape := ⟨2, ![120000, 2000]⟩
abbrev S1x2000 : Shape := ⟨2, ![1, 2000]⟩
abbrev S20000x500 : Shape := ⟨2, ![20000, 500]⟩
abbrev S800x500 : Shape := ⟨2, ![800, 500]⟩
abbrev S120000x500 : Shape := ⟨2, ![120000, 500]⟩
abbrev S1x500 : Shape := ⟨2, ![1, 500]⟩
abbrev S20000x100 : Shape := ⟨2, ![20000, 100]⟩
abbrev S800x100 : Shape := ⟨2, ![800, 100]⟩
abbrev S120000x100 : Shape := ⟨2, ![120000, 100]⟩
abbrev S1x100 : Shape := ⟨2, ![1, 100]⟩
abbrev S20000x2 : Shape := ⟨2, ![20000, 2]⟩
abbrev S800x2 : Shape := ⟨2, ![800, 2]⟩
abbrev S120000x2 : Shape := ⟨2, ![120000, 2]⟩
abbrev S1x2 : Shape := ⟨2, ![1, 2]⟩

abbrev nBuf : Space → Nat
  | .hbm => 204
  | .vmem => 20
  | .smem => 0
  | _ => 0

abbrev hbmTy0_0 (i : Nat) : BufTy := match i % 128 with
  | 0 => ⟨S20000x3000, .f32⟩
  | 1 => ⟨S2x100000, .i32⟩
  | 2 => ⟨S3000x2000, .f32⟩
  | 3 => ⟨S2000, .f32⟩
  | 4 => ⟨S2000x500, .f32⟩
  | 5 => ⟨S500, .f32⟩
  | 6 => ⟨S500x100, .f32⟩
  | 7 => ⟨S100, .f32⟩
  | 8 => ⟨S100x2, .f32⟩
  | 9 => ⟨S2, .f32⟩
  | 10 => ⟨S20000, .i32⟩
  | 11 => ⟨S1x100000, .i32⟩
  | 12 => ⟨S100000, .i32⟩
  | 13 => ⟨S120000, .i32⟩
  | 14 => ⟨S1x100000, .i32⟩
  | 15 => ⟨S100000, .i32⟩
  | 16 => ⟨S120000, .i32⟩
  | 17 => ⟨S_, .f32⟩
  | 18 => ⟨S20000, .f32⟩
  | 19 => ⟨S_, .i32⟩
  | 20 => ⟨S120000, .i32⟩
  | 21 => ⟨S120000, .i1⟩
  | 22 => ⟨S_, .i32⟩
  | 23 => ⟨S120000, .i32⟩
  | 24 => ⟨S120000, .i32⟩
  | 25 => ⟨S120000, .i32⟩
  | 26 => ⟨S120000x1, .i32⟩
  | 27 => ⟨S_, .f32⟩
  | 28 => ⟨S120000, .f32⟩
  | 29 => ⟨S20000, .f32⟩
  | 30 => ⟨S20000, .f32⟩
  | 31 => ⟨S20000x3000, .bf16⟩
  | 32 => ⟨S3000x2000, .bf16⟩
  | 33 => ⟨S20000x2000, .f32⟩
  | 34 => ⟨S_, .i32⟩
  | 35 => ⟨S120000, .i32⟩
  | 36 => ⟨S120000, .i1⟩
  | 37 => ⟨S_, .i32⟩
  | 38 => ⟨S120000, .i32⟩
  | 39 => ⟨S120000, .i32⟩
  | 40 => ⟨S120000, .i32⟩
  | 41 => ⟨S120000x1, .i32⟩
  | 42 => ⟨S120000, .f32⟩
  | 43 => ⟨S_, .i32⟩
  | 44 => ⟨S120000, .i32⟩
  | 45 => ⟨S120000, .i1⟩
  | 46 => ⟨S_, .i32⟩
  | 47 => ⟨S120000, .i32⟩
  | 48 => ⟨S120000, .i32⟩
  | 49 => ⟨S120000, .i32⟩
  | 50 => ⟨S120000x1, .i32⟩
  | 51 => ⟨S120000, .f32⟩
  | 52 => ⟨S120000, .f32⟩
  | 53 => ⟨S_, .i32⟩
  | 54 => ⟨S120000, .i32⟩
  | 55 => ⟨S120000, .i1⟩
  | 56 => ⟨S_, .i32⟩
  | 57 => ⟨S120000, .i32⟩
  | 58 => ⟨S120000, .i32⟩
  | 59 => ⟨S120000, .i32⟩
  | 60 => ⟨S120000x1, .i32⟩
  | 61 => ⟨S120000x2000, .f32⟩
  | 62 => ⟨S120000x1, .f32⟩
  | 63 => ⟨S120000x2000, .f32⟩
  | 64 => ⟨S120000x2000, .f32⟩
  | 65 => ⟨S_, .f32⟩
  | 66 => ⟨S20000x2000, .f32⟩
  | 67 => ⟨S120000x1, .i32⟩
  | 68 => ⟨S20000x2000, .f32⟩
  | 69 => ⟨S1x2000, .f32⟩
  | 70 => ⟨S20000x2000, .f32⟩
  | 71 => ⟨S20000x2000, .f32⟩
  | 72 => ⟨S_, .f32⟩
  | 73 => ⟨S20000x2000, .f32⟩
  | 74 => ⟨S20000x2000, .f32⟩
  | 75 => ⟨S20000x2000, .bf16⟩
  | 76 => ⟨S2000x500, .bf16⟩
  | 77 => ⟨S20000x500, .f32⟩
  | 78 => ⟨S_, .i32⟩
  | 79 => ⟨S120000, .i32⟩
  | 80 => ⟨S120000, .i1⟩
  | 81 => ⟨S_, .i32⟩
  | 82 => ⟨S120000, .i32⟩
  | 83 => ⟨S120000, .i32⟩
  | 84 => ⟨S120000, .i32⟩
  | 85 => ⟨S120000x1, .i32⟩
  | 86 => ⟨S120000, .f32⟩
  | 87 => ⟨S_, .i32⟩
  | 88 => ⟨S120000, .i32⟩
  | 89 => ⟨S120000, .i1⟩
  | 90 => ⟨S_, .i32⟩
  | 91 => ⟨S120000, .i32⟩
  | 92 => ⟨S120000, .i32⟩
  | 93 => ⟨S120000, .i32⟩
  | 94 => ⟨S120000x1, .i32⟩
  | 95 => ⟨S120000, .f32⟩
  | 96 => ⟨S120000, .f32⟩
  | 97 => ⟨S_, .i32⟩
  | 98 => ⟨S120000, .i32⟩
  | 99 => ⟨S120000, .i1⟩
  | 100 => ⟨S_, .i32⟩
  | 101 => ⟨S120000, .i32⟩
  | 102 => ⟨S120000, .i32⟩
  | 103 => ⟨S120000, .i32⟩
  | 104 => ⟨S120000x1, .i32⟩
  | 105 => ⟨S120000x500, .f32⟩
  | 106 => ⟨S120000x1, .f32⟩
  | 107 => ⟨S120000x500, .f32⟩
  | 108 => ⟨S120000x500, .f32⟩
  | 109 => ⟨S_, .f32⟩
  | 110 => ⟨S20000x500, .f32⟩
  | 111 => ⟨S120000x1, .i32⟩
  | 112 => ⟨S20000x500, .f32⟩
  | 113 => ⟨S1x500, .f32⟩
  | 114 => ⟨S20000x500, .f32⟩
  | 115 => ⟨S20000x500, .f32⟩
  | 116 => ⟨S_, .f32⟩
  | 117 => ⟨S20000x500, .f32⟩
  | 118 => ⟨S20000x500, .f32⟩
  | 119 => ⟨S20000x500, .bf16⟩
  | 120 => ⟨S500x100, .bf16⟩
  | 121 => ⟨S20000x100, .f32⟩
  | 122 => ⟨S_, .i32⟩
  | 123 => ⟨S120000, .i32⟩
  | 124 => ⟨S120000, .i1⟩
  | 125 => ⟨S_, .i32⟩
  | 126 => ⟨S120000, .i32⟩
  | 127 => ⟨S120000, .i32⟩
  | _ => ⟨S20000x3000, .f32⟩

abbrev hbmTy0_1 (i : Nat) : BufTy := match i % 128 with
  | 0 => ⟨S120000, .i32⟩
  | 1 => ⟨S120000x1, .i32⟩
  | 2 => ⟨S120000, .f32⟩
  | 3 => ⟨S_, .i32⟩
  | 4 => ⟨S120000, .i32⟩
  | 5 => ⟨S120000, .i1⟩
  | 6 => ⟨S_, .i32⟩
  | 7 => ⟨S120000, .i32⟩
  | 8 => ⟨S120000, .i32⟩
  | 9 => ⟨S120000, .i32⟩
  | 10 => ⟨S120000x1, .i32⟩
  | 11 => ⟨S120000, .f32⟩
  | 12 => ⟨S120000, .f32⟩
  | 13 => ⟨S_, .i32⟩
  | 14 => ⟨S120000, .i32⟩
  | 15 => ⟨S120000, .i1⟩
  | 16 => ⟨S_, .i32⟩
  | 17 => ⟨S120000, .i32⟩
  | 18 => ⟨S120000, .i32⟩
  | 19 => ⟨S120000, .i32⟩
  | 20 => ⟨S120000x1, .i32⟩
  | 21 => ⟨S120000x100, .f32⟩
  | 22 => ⟨S120000x1, .f32⟩
  | 23 => ⟨S120000x100, .f32⟩
  | 24 => ⟨S120000x100, .f32⟩
  | 25 => ⟨S_, .f32⟩
  | 26 => ⟨S20000x100, .f32⟩
  | 27 => ⟨S120000x1, .i32⟩
  | 28 => ⟨S20000x100, .f32⟩
  | 29 => ⟨S1x100, .f32⟩
  | 30 => ⟨S20000x100, .f32⟩
  | 31 => ⟨S20000x100, .f32⟩
  | 32 => ⟨S_, .f32⟩
  | 33 => ⟨S20000x100, .f32⟩
  | 34 => ⟨S20000x100, .f32⟩
  | 35 => ⟨S20000x100, .bf16⟩
  | 36 => ⟨S100x2, .bf16⟩
  | 37 => ⟨S20000x2, .f32⟩
  | 38 => ⟨S_, .i32⟩
  | 39 => ⟨S120000, .i32⟩
  | 40 => ⟨S120000, .i1⟩
  | 41 => ⟨S_, .i32⟩
  | 42 => ⟨S120000, .i32⟩
  | 43 => ⟨S120000, .i32⟩
  | 44 => ⟨S120000, .i32⟩
  | 45 => ⟨S120000x1, .i32⟩
  | 46 => ⟨S120000, .f32⟩
  | 47 => ⟨S_, .i32⟩
  | 48 => ⟨S120000, .i32⟩
  | 49 => ⟨S120000, .i1⟩
  | 50 => ⟨S_, .i32⟩
  | 51 => ⟨S120000, .i32⟩
  | 52 => ⟨S120000, .i32⟩
  | 53 => ⟨S120000, .i32⟩
  | 54 => ⟨S120000x1, .i32⟩
  | 55 => ⟨S120000, .f32⟩
  | 56 => ⟨S120000, .f32⟩
  | 57 => ⟨S_, .i32⟩
  | 58 => ⟨S120000, .i32⟩
  | 59 => ⟨S120000, .i1⟩
  | 60 => ⟨S_, .i32⟩
  | 61 => ⟨S120000, .i32⟩
  | 62 => ⟨S120000, .i32⟩
  | 63 => ⟨S120000, .i32⟩
  | 64 => ⟨S120000x1, .i32⟩
  | 65 => ⟨S120000x2, .f32⟩
  | 66 => ⟨S120000x1, .f32⟩
  | 67 => ⟨S120000x2, .f32⟩
  | 68 => ⟨S120000x2, .f32⟩
  | 69 => ⟨S_, .f32⟩
  | 70 => ⟨S20000x2, .f32⟩
  | 71 => ⟨S120000x1, .i32⟩
  | 72 => ⟨S20000x2, .f32⟩
  | 73 => ⟨S1x2, .f32⟩
  | 74 => ⟨S20000x2, .f32⟩
  | 75 => ⟨S20000x2, .f32⟩
  | _ => ⟨S20000x3000, .f32⟩

abbrev hbmTy (i : Nat) : BufTy := match i / 128 with
  | 0 => hbmTy0_0 i
  | 1 => hbmTy0_1 i
  | _ => ⟨S20000x3000, .f32⟩

abbrev bufTy : (tb : Table) → Fin (tcTables nBuf tb) → BufTy
  | .hbm, ⟨i, _⟩ => hbmTy i
  | .local _ .vmem, ⟨0, _⟩ => ⟨S800x3000, .bf16⟩
  | .local _ .vmem, ⟨1, _⟩ => ⟨S800x3000, .bf16⟩
  | .local _ .vmem, ⟨2, _⟩ => ⟨S3000x2000, .bf16⟩
  | .local _ .vmem, ⟨3, _⟩ => ⟨S800x2000, .f32⟩
  | .local _ .vmem, ⟨4, _⟩ => ⟨S800x2000, .f32⟩
  | .local _ .vmem, ⟨5, _⟩ => ⟨S800x2000, .bf16⟩
  | .local _ .vmem, ⟨6, _⟩ => ⟨S800x2000, .bf16⟩
  | .local _ .vmem, ⟨7, _⟩ => ⟨S2000x500, .bf16⟩
  | .local _ .vmem, ⟨8, _⟩ => ⟨S800x500, .f32⟩
  | .local _ .vmem, ⟨9, _⟩ => ⟨S800x500, .f32⟩
  | .local _ .vmem, ⟨10, _⟩ => ⟨S800x500, .bf16⟩
  | .local _ .vmem, ⟨11, _⟩ => ⟨S800x500, .bf16⟩
  | .local _ .vmem, ⟨12, _⟩ => ⟨S500x100, .bf16⟩
  | .local _ .vmem, ⟨13, _⟩ => ⟨S800x100, .f32⟩
  | .local _ .vmem, ⟨14, _⟩ => ⟨S800x100, .f32⟩
  | .local _ .vmem, ⟨15, _⟩ => ⟨S800x100, .bf16⟩
  | .local _ .vmem, ⟨16, _⟩ => ⟨S800x100, .bf16⟩
  | .local _ .vmem, ⟨17, _⟩ => ⟨S100x2, .bf16⟩
  | .local _ .vmem, ⟨18, _⟩ => ⟨S800x2, .f32⟩
  | .local _ .vmem, ⟨19, _⟩ => ⟨S800x2, .f32⟩
  | _, _ => ⟨S20000x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_cst : Ref sig .tc := ⟨.hbm, 72, rfl⟩
abbrev main_call0_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_16 : Ref sig .tc := ⟨.hbm, 122, rfl⟩
abbrev main_v90 : Ref sig .tc := ⟨.hbm, 123, rfl⟩
abbrev main_v91 : Ref sig .tc := ⟨.hbm, 124, rfl⟩
abbrev main_c_17 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_18 : Ref sig .tc := ⟨.hbm, 131, rfl⟩
abbrev main_v97 : Ref sig .tc := ⟨.hbm, 132, rfl⟩
abbrev main_v98 : Ref sig .tc := ⟨.hbm, 133, rfl⟩
abbrev main_c_19 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_c_20 : Ref sig .tc := ⟨.hbm, 141, rfl⟩
abbrev main_v105 : Ref sig .tc := ⟨.hbm, 142, rfl⟩
abbrev main_v106 : Ref sig .tc := ⟨.hbm, 143, rfl⟩
abbrev main_c_21 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_22 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_call2_cst : Ref sig .tc := ⟨.hbm, 160, rfl⟩
abbrev main_call2_v0 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_23 : Ref sig .tc := ⟨.hbm, 166, rfl⟩
abbrev main_v125 : Ref sig .tc := ⟨.hbm, 167, rfl⟩
abbrev main_v126 : Ref sig .tc := ⟨.hbm, 168, rfl⟩
abbrev main_c_24 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_25 : Ref sig .tc := ⟨.hbm, 175, rfl⟩
abbrev main_v132 : Ref sig .tc := ⟨.hbm, 176, rfl⟩
abbrev main_v133 : Ref sig .tc := ⟨.hbm, 177, rfl⟩
abbrev main_c_26 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_27 : Ref sig .tc := ⟨.hbm, 185, rfl⟩
abbrev main_v140 : Ref sig .tc := ⟨.hbm, 186, rfl⟩
abbrev main_v141 : Ref sig .tc := ⟨.hbm, 187, rfl⟩
abbrev main_c_28 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_cst_29 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x3000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3000x2000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S800x2000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S800x2000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x500 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S800x500 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S800x500 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S500x100 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S800x100 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S800x100 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S100x2 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S800x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x100000_S1x100000_0_0 : S2x100000.Slices ![0, 0] S1x100000
  shapeCasts_S1x100000_S100000 : S1x100000.ShapeCasts S100000
  concatenates_S100000_S20000_S120000_d0 : Shape.Concatenates [S100000, S20000] S120000 0
  slices_S2x100000_S1x100000_1_0 : S2x100000.Slices ![1, 0] S1x100000
  bcast_S_S20000 : S_.BroadcastsInDim S20000 (![] : Fin 0 → Fin S20000.rank)
  bcast_S_S120000 : S_.BroadcastsInDim S120000 (![] : Fin 0 → Fin S120000.rank)
  bcast_S120000_S120000x1_0 : S120000.BroadcastsInDim S120000x1 (![0] : Fin 1 → Fin S120000x1.rank)
  bitsLt_bf16_f32 : FTy.bits .bf16 < FTy.bits .f32
  inb_S800x3000_S800x3000_0_0 : ∀ a, (![0, 0] : Fin 2 → Nat) a + S800x3000.size a ≤ S800x3000.size a
  h_S800x3000 : 0 < S800x3000.numel
  shapeCasts_S800x3000_S800x3000 : S800x3000.ShapeCasts S800x3000
  inb_S3000x2000_S3000x2000_0_0 : ∀ a, (![0, 0] : Fin 2 → Nat) a + S3000x2000.size a ≤ S3000x2000.size a
  h_S3000x2000 : 0 < S3000x2000.numel
  shapeCasts_S3000x2000_S3000x2000 : S3000x2000.ShapeCasts S3000x2000
  inb_S800x2000_S800x2000_0_0 : ∀ a, (![0, 0] : Fin 2 → Nat) a + S800x2000.size a ≤ S800x2000.size a
  h_S800x2000 : 0 < S800x2000.numel
  bcast_S120000x1_S120000x2000_0_1 : S120000x1.BroadcastsInDim S120000x2000 (![0, 1] : Fin 2 → Fin S120000x2000.rank)
  bcast_S_S20000x2000 : S_.BroadcastsInDim S20000x2000 (![] : Fin 0 → Fin S20000x2000.rank)
  bcast_S2000_S1x2000_1 : S2000.BroadcastsInDim S1x2000 (![1] : Fin 1 → Fin S1x2000.rank)
  bcast_S1x2000_S20000x2000_0_1 : S1x2000.BroadcastsInDim S20000x2000 (![0, 1] : Fin 2 → Fin S20000x2000.rank)
  shapeCasts_S800x2000_S800x2000 : S800x2000.ShapeCasts S800x2000
  inb_S2000x500_S2000x500_0_0 : ∀ a, (![0, 0] : Fin 2 → Nat) a + S2000x500.size a ≤ S2000x500.size a
  h_S2000x500 : 0 < S2000x500.numel
  shapeCasts_S2000x500_S2000x500 : S2000x500.ShapeCasts S2000x500
  inb_S800x500_S800x500_0_0 : ∀ a, (![0, 0] : Fin 2 → Nat) a + S800x500.size a ≤ S800x500.size a
  h_S800x500 : 0 < S800x500.numel
  bcast_S120000x1_S120000x500_0_1 : S120000x1.BroadcastsInDim S120000x500 (![0, 1] : Fin 2 → Fin S120000x500.rank)
  bcast_S_S20000x500 : S_.BroadcastsInDim S20000x500 (![] : Fin 0 → Fin S20000x500.rank)
  bcast_S500_S1x500_1 : S500.BroadcastsInDim S1x500 (![1] : Fin 1 → Fin S1x500.rank)
  bcast_S1x500_S20000x500_0_1 : S1x500.BroadcastsInDim S20000x500 (![0, 1] : Fin 2 → Fin S20000x500.rank)
  shapeCasts_S800x500_S800x500 : S800x500.ShapeCasts S800x500
  inb_S500x100_S500x100_0_0 : ∀ a, (![0, 0] : Fin 2 → Nat) a + S500x100.size a ≤ S500x100.size a
  h_S500x100 : 0 < S500x100.numel
  shapeCasts_S500x100_S500x100 : S500x100.ShapeCasts S500x100
  inb_S800x100_S800x100_0_0 : ∀ a, (![0, 0] : Fin 2 → Nat) a + S800x100.size a ≤ S800x100.size a
  h_S800x100 : 0 < S800x100.numel
  bcast_S120000x1_S120000x100_0_1 : S120000x1.BroadcastsInDim S120000x100 (![0, 1] : Fin 2 → Fin S120000x100.rank)
  bcast_S_S20000x100 : S_.BroadcastsInDim S20000x100 (![] : Fin 0 → Fin S20000x100.rank)
  bcast_S100_S1x100_1 : S100.BroadcastsInDim S1x100 (![1] : Fin 1 → Fin S1x100.rank)
  bcast_S1x100_S20000x100_0_1 : S1x100.BroadcastsInDim S20000x100 (![0, 1] : Fin 2 → Fin S20000x100.rank)
  shapeCasts_S800x100_S800x100 : S800x100.ShapeCasts S800x100
  inb_S100x2_S100x2_0_0 : ∀ a, (![0, 0] : Fin 2 → Nat) a + S100x2.size a ≤ S100x2.size a
  h_S100x2 : 0 < S100x2.numel
  shapeCasts_S100x2_S100x2 : S100x2.ShapeCasts S100x2
  inb_S800x2_S800x2_0_0 : ∀ a, (![0, 0] : Fin 2 → Nat) a + S800x2.size a ≤ S800x2.size a
  h_S800x2 : 0 < S800x2.numel
  bcast_S120000x1_S120000x2_0_1 : S120000x1.BroadcastsInDim S120000x2 (![0, 1] : Fin 2 → Fin S120000x2.rank)
  bcast_S_S20000x2 : S_.BroadcastsInDim S20000x2 (![] : Fin 0 → Fin S20000x2.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  scatter_S20000_S120000x1_S120000_n_0_0_1_wf : ScatterDims.WF S20000 S120000x1 S120000 [] [0] [0] 1
  dot_S800x3000_S3000x2000_S800x2000_1_0_0_1_n_n_wf : DotDims.WF S800x3000 S3000x2000 S800x2000 [1] [0] [0] [1] [] []
  gather_S20000_S120000x1_S120000_n_0_n_n_0_1_1_wf : GatherDims.WF S20000 S120000x1 S120000 [] [0] [] [0] [] 1 ![1]
  gather_S20000x2000_S120000x1_S120000x2000_1_0_n_n_0_1_12000_wf : GatherDims.WF S20000x2000 S120000x1 S120000x2000 [1] [0] [] [0] [] 1 ![1, 2000]
  scatter_S20000x2000_S120000x1_S120000x2000_1_0_0_1_wf : ScatterDims.WF S20000x2000 S120000x1 S120000x2000 [1] [0] [0] 1
  dot_S800x2000_S2000x500_S800x500_1_0_0_1_n_n_wf : DotDims.WF S800x2000 S2000x500 S800x500 [1] [0] [0] [1] [] []
  gather_S20000x500_S120000x1_S120000x500_1_0_n_n_0_1_1500_wf : GatherDims.WF S20000x500 S120000x1 S120000x500 [1] [0] [] [0] [] 1 ![1, 500]
  scatter_S20000x500_S120000x1_S120000x500_1_0_0_1_wf : ScatterDims.WF S20000x500 S120000x1 S120000x500 [1] [0] [0] 1
  dot_S800x500_S500x100_S800x100_1_0_0_1_n_n_wf : DotDims.WF S800x500 S500x100 S800x100 [1] [0] [0] [1] [] []
  gather_S20000x100_S120000x1_S120000x100_1_0_n_n_0_1_1100_wf : GatherDims.WF S20000x100 S120000x1 S120000x100 [1] [0] [] [0] [] 1 ![1, 100]
  scatter_S20000x100_S120000x1_S120000x100_1_0_0_1_wf : ScatterDims.WF S20000x100 S120000x1 S120000x100 [1] [0] [0] 1
  dot_S800x100_S100x2_S800x2_1_0_0_1_n_n_wf : DotDims.WF S800x100 S100x2 S800x2 [1] [0] [0] [1] [] []
  gather_S20000x2_S120000x1_S120000x2_1_0_n_n_0_1_12_wf : GatherDims.WF S20000x2 S120000x1 S120000x2 [1] [0] [] [0] [] 1 ![1, 2]
  scatter_S20000x2_S120000x1_S120000x2_1_0_0_1_wf : ScatterDims.WF S20000x2 S120000x1 S120000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x3000.size a ≤ S20000x3000.size a
  hwx0_0 : ∀ i : grid0.Coords, EltTy.bits .bf16 = 32 ∨ (Rect.block (s := S20000x3000) S800x3000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3000x2000.size a ≤ S3000x2000.size a
  hwx0_1 : ∀ i : grid0.Coords, EltTy.bits .bf16 = 32 ∨ (Rect.block (s := S3000x2000) S3000x2000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x2000.size a ≤ S20000x2000.size a
  hwx0_2 : ∀ i : grid0.Coords, EltTy.bits .f32 = 32 ∨ (Rect.block (s := S20000x2000) S800x2000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S800x2000.size a ≤ S20000x2000.size a
  hwx1_0 : ∀ i : grid1.Coords, EltTy.bits .bf16 = 32 ∨ (Rect.block (s := S20000x2000) S800x2000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x500.size a ≤ S2000x500.size a
  hwx1_1 : ∀ i : grid1.Coords, EltTy.bits .bf16 = 32 ∨ (Rect.block (s := S2000x500) S2000x500.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x500.size a ≤ S20000x500.size a
  hwx1_2 : ∀ i : grid1.Coords, EltTy.bits .f32 = 32 ∨ (Rect.block (s := S20000x500) S800x500.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S800x500.size a ≤ S20000x500.size a
  hwx2_0 : ∀ i : grid2.Coords, EltTy.bits .bf16 = 32 ∨ (Rect.block (s := S20000x500) S800x500.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S500x100.size a ≤ S500x100.size a
  hwx2_1 : ∀ i : grid2.Coords, EltTy.bits .bf16 = 32 ∨ (Rect.block (s := S500x100) S500x100.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x100.size a ≤ S20000x100.size a
  hwx2_2 : ∀ i : grid2.Coords, EltTy.bits .f32 = 32 ∨ (Rect.block (s := S20000x100) S800x100.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S800x100.size a ≤ S20000x100.size a
  hwx3_0 : ∀ i : grid3.Coords, EltTy.bits .bf16 = 32 ∨ (Rect.block (s := S20000x100) S800x100.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S100x2.size a ≤ S100x2.size a
  hwx3_1 : ∀ i : grid3.Coords, EltTy.bits .bf16 = 32 ∨ (Rect.block (s := S100x2) S100x2.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S800x2.size a ≤ S20000x2.size a
  hwx3_2 : ∀ i : grid3.Coords, EltTy.bits .f32 = 32 ∨ (Rect.block (s := S20000x2) S800x2.size (cc3_transform_2 i) (hinb3_2 i)).WholeWords (EltTy.packing .f32)

variable [Facts₀]

def scatter_S20000_S120000x1_S120000_n_0_0_1 : ScatterDims S20000 S120000x1 S120000 where
  updateWindowDims := []
  insertedWindowDims := [0]
  scatterDimsToOperandDims := [0]
  indexVectorDim := 1
  wf := scatter_S20000_S120000x1_S120000_n_0_0_1_wf
def dot_S800x3000_S3000x2000_S800x2000_1_0_0_1_n_n : DotDims S800x3000 S3000x2000 S800x2000 where
  lhsContracting := [1]
  rhsContracting := [0]
  lhsNonContracting := [0]
  rhsNonContracting := [1]
  lhsBatch := []
  rhsBatch := []
  wf := dot_S800x3000_S3000x2000_S800x2000_1_0_0_1_n_n_wf
def gather_S20000_S120000x1_S120000_n_0_n_n_0_1_1 : GatherDims S20000 S120000x1 S120000 where
  offsetDims := []
  collapsedSliceDims := [0]
  operandBatchingDims := []
  startIndicesBatchingDims := []
  startIndexMap := [0]
  indexVectorDim := 1
  sliceSizes := ![1]
  wf := gather_S20000_S120000x1_S120000_n_0_n_n_0_1_1_wf
def gather_S20000x2000_S120000x1_S120000x2000_1_0_n_n_0_1_12000 : GatherDims S20000x2000 S120000x1 S120000x2000 where
  offsetDims := [1]
  collapsedSliceDims := [0]
  operandBatchingDims := []
  startIndicesBatchingDims := []
  startIndexMap := [0]
  indexVectorDim := 1
  sliceSizes := ![1, 2000]
  wf := gather_S20000x2000_S120000x1_S120000x2000_1_0_n_n_0_1_12000_wf
def scatter_S20000x2000_S120000x1_S120000x2000_1_0_0_1 : ScatterDims S20000x2000 S120000x1 S120000x2000 where
  updateWindowDims := [1]
  insertedWindowDims := [0]
  scatterDimsToOperandDims := [0]
  indexVectorDim := 1
  wf := scatter_S20000x2000_S120000x1_S120000x2000_1_0_0_1_wf
def dot_S800x2000_S2000x500_S800x500_1_0_0_1_n_n : DotDims S800x2000 S2000x500 S800x500 where
  lhsContracting := [1]
  rhsContracting := [0]
  lhsNonContracting := [0]
  rhsNonContracting := [1]
  lhsBatch := []
  rhsBatch := []
  wf := dot_S800x2000_S2000x500_S800x500_1_0_0_1_n_n_wf
def gather_S20000x500_S120000x1_S120000x500_1_0_n_n_0_1_1500 : GatherDims S20000x500 S120000x1 S120000x500 where
  offsetDims := [1]
  collapsedSliceDims := [0]
  operandBatchingDims := []
  startIndicesBatchingDims := []
  startIndexMap := [0]
  indexVectorDim := 1
  sliceSizes := ![1, 500]
  wf := gather_S20000x500_S120000x1_S120000x500_1_0_n_n_0_1_1500_wf
def scatter_S20000x500_S120000x1_S120000x500_1_0_0_1 : ScatterDims S20000x500 S120000x1 S120000x500 where
  updateWindowDims := [1]
  insertedWindowDims := [0]
  scatterDimsToOperandDims := [0]
  indexVectorDim := 1
  wf := scatter_S20000x500_S120000x1_S120000x500_1_0_0_1_wf
def dot_S800x500_S500x100_S800x100_1_0_0_1_n_n : DotDims S800x500 S500x100 S800x100 where
  lhsContracting := [1]
  rhsContracting := [0]
  lhsNonContracting := [0]
  rhsNonContracting := [1]
  lhsBatch := []
  rhsBatch := []
  wf := dot_S800x500_S500x100_S800x100_1_0_0_1_n_n_wf
def gather_S20000x100_S120000x1_S120000x100_1_0_n_n_0_1_1100 : GatherDims S20000x100 S120000x1 S120000x100 where
  offsetDims := [1]
  collapsedSliceDims := [0]
  operandBatchingDims := []
  startIndicesBatchingDims := []
  startIndexMap := [0]
  indexVectorDim := 1
  sliceSizes := ![1, 100]
  wf := gather_S20000x100_S120000x1_S120000x100_1_0_n_n_0_1_1100_wf
def scatter_S20000x100_S120000x1_S120000x100_1_0_0_1 : ScatterDims S20000x100 S120000x1 S120000x100 where
  updateWindowDims := [1]
  insertedWindowDims := [0]
  scatterDimsToOperandDims := [0]
  indexVectorDim := 1
  wf := scatter_S20000x100_S120000x1_S120000x100_1_0_0_1_wf
def dot_S800x100_S100x2_S800x2_1_0_0_1_n_n : DotDims S800x100 S100x2 S800x2 where
  lhsContracting := [1]
  rhsContracting := [0]
  lhsNonContracting := [0]
  rhsNonContracting := [1]
  lhsBatch := []
  rhsBatch := []
  wf := dot_S800x100_S100x2_S800x2_1_0_0_1_n_n_wf
def gather_S20000x2_S120000x1_S120000x2_1_0_n_n_0_1_12 : GatherDims S20000x2 S120000x1 S120000x2 where
  offsetDims := [1]
  collapsedSliceDims := [0]
  operandBatchingDims := []
  startIndicesBatchingDims := []
  startIndexMap := [0]
  indexVectorDim := 1
  sliceSizes := ![1, 2]
  wf := gather_S20000x2_S120000x1_S120000x2_1_0_n_n_0_1_12_wf
def scatter_S20000x2_S120000x1_S120000x2_1_0_0_1 : ScatterDims S20000x2 S120000x1 S120000x2 where
  updateWindowDims := [1]
  insertedWindowDims := [0]
  scatterDimsToOperandDims := [0]
  indexVectorDim := 1
  wf := scatter_S20000x2_S120000x1_S120000x2_1_0_0_1_wf

abbrev win0_0 : Pipeline.Window sig grid0 :=
  Pipeline.Window.ofSpec (Memref.whole main_v17) S800x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3000x2000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S800x2000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S800x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x500.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S800x500.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v87) S800x500.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S500x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v89) S800x100.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v122) S800x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v123) S100x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v124) S800x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S20000x3000 : Shape := ⟨2, ![20000, 3000]⟩
abbrev S2x100000 : Shape := ⟨2, ![2, 100000]⟩
abbrev S3000x2000 : Shape := ⟨2, ![3000, 2000]⟩
abbrev S2000 : Shape := ⟨1, ![2000]⟩
abbrev S2000x500 : Shape := ⟨2, ![2000, 500]⟩
abbrev S500 : Shape := ⟨1, ![500]⟩
abbrev S500x100 : Shape := ⟨2, ![500, 100]⟩
abbrev S100 : Shape := ⟨1, ![100]⟩
abbrev S100x2 : Shape := ⟨2, ![100, 2]⟩
abbrev S2 : Shape := ⟨1, ![2]⟩
abbrev S20000 : Shape := ⟨1, ![20000]⟩
abbrev S1x100000 : Shape := ⟨2, ![1, 100000]⟩
abbrev S100000 : Shape := ⟨1, ![100000]⟩
abbrev S120000 : Shape := ⟨1, ![120000]⟩
abbrev S_ : Shape := ⟨0, ![]⟩
abbrev S120000x1 : Shape := ⟨2, ![120000, 1]⟩
abbrev S20000x2000 : Shape := ⟨2, ![20000, 2000]⟩
abbrev S120000x2000 : Shape := ⟨2, ![120000, 2000]⟩
abbrev S1x2000 : Shape := ⟨2, ![1, 2000]⟩
abbrev S20000x500 : Shape := ⟨2, ![20000, 500]⟩
abbrev S120000x500 : Shape := ⟨2, ![120000, 500]⟩
abbrev S1x500 : Shape := ⟨2, ![1, 500]⟩
abbrev S20000x100 : Shape := ⟨2, ![20000, 100]⟩
abbrev S120000x100 : Shape := ⟨2, ![120000, 100]⟩
abbrev S1x100 : Shape := ⟨2, ![1, 100]⟩
abbrev S20000x2 : Shape := ⟨2, ![20000, 2]⟩
abbrev S120000x2 : Shape := ⟨2, ![120000, 2]⟩
abbrev S1x2 : Shape := ⟨2, ![1, 2]⟩

abbrev nBuf : Space → Nat
  | .hbm => 196
  | .vmem => 0
  | .smem => 0
  | _ => 0

abbrev hbmTy0_0 (i : Nat) : BufTy := match i % 128 with
  | 0 => ⟨S20000x3000, .f32⟩
  | 1 => ⟨S2x100000, .i32⟩
  | 2 => ⟨S3000x2000, .f32⟩
  | 3 => ⟨S2000, .f32⟩
  | 4 => ⟨S2000x500, .f32⟩
  | 5 => ⟨S500, .f32⟩
  | 6 => ⟨S500x100, .f32⟩
  | 7 => ⟨S100, .f32⟩
  | 8 => ⟨S100x2, .f32⟩
  | 9 => ⟨S2, .f32⟩
  | 10 => ⟨S20000, .i32⟩
  | 11 => ⟨S1x100000, .i32⟩
  | 12 => ⟨S100000, .i32⟩
  | 13 => ⟨S120000, .i32⟩
  | 14 => ⟨S1x100000, .i32⟩
  | 15 => ⟨S100000, .i32⟩
  | 16 => ⟨S120000, .i32⟩
  | 17 => ⟨S_, .f32⟩
  | 18 => ⟨S20000, .f32⟩
  | 19 => ⟨S_, .i32⟩
  | 20 => ⟨S120000, .i32⟩
  | 21 => ⟨S120000, .i1⟩
  | 22 => ⟨S_, .i32⟩
  | 23 => ⟨S120000, .i32⟩
  | 24 => ⟨S120000, .i32⟩
  | 25 => ⟨S120000, .i32⟩
  | 26 => ⟨S120000x1, .i32⟩
  | 27 => ⟨S_, .f32⟩
  | 28 => ⟨S120000, .f32⟩
  | 29 => ⟨S20000, .f32⟩
  | 30 => ⟨S20000, .f32⟩
  | 31 => ⟨S20000x2000, .f32⟩
  | 32 => ⟨S_, .i32⟩
  | 33 => ⟨S120000, .i32⟩
  | 34 => ⟨S120000, .i1⟩
  | 35 => ⟨S_, .i32⟩
  | 36 => ⟨S120000, .i32⟩
  | 37 => ⟨S120000, .i32⟩
  | 38 => ⟨S120000, .i32⟩
  | 39 => ⟨S120000x1, .i32⟩
  | 40 => ⟨S120000, .f32⟩
  | 41 => ⟨S_, .i32⟩
  | 42 => ⟨S120000, .i32⟩
  | 43 => ⟨S120000, .i1⟩
  | 44 => ⟨S_, .i32⟩
  | 45 => ⟨S120000, .i32⟩
  | 46 => ⟨S120000, .i32⟩
  | 47 => ⟨S120000, .i32⟩
  | 48 => ⟨S120000x1, .i32⟩
  | 49 => ⟨S120000, .f32⟩
  | 50 => ⟨S120000, .f32⟩
  | 51 => ⟨S_, .i32⟩
  | 52 => ⟨S120000, .i32⟩
  | 53 => ⟨S120000, .i1⟩
  | 54 => ⟨S_, .i32⟩
  | 55 => ⟨S120000, .i32⟩
  | 56 => ⟨S120000, .i32⟩
  | 57 => ⟨S120000, .i32⟩
  | 58 => ⟨S120000x1, .i32⟩
  | 59 => ⟨S120000x2000, .f32⟩
  | 60 => ⟨S120000x1, .f32⟩
  | 61 => ⟨S120000x2000, .f32⟩
  | 62 => ⟨S120000x2000, .f32⟩
  | 63 => ⟨S_, .f32⟩
  | 64 => ⟨S20000x2000, .f32⟩
  | 65 => ⟨S120000x1, .i32⟩
  | 66 => ⟨S20000x2000, .f32⟩
  | 67 => ⟨S1x2000, .f32⟩
  | 68 => ⟨S20000x2000, .f32⟩
  | 69 => ⟨S20000x2000, .f32⟩
  | 70 => ⟨S_, .f32⟩
  | 71 => ⟨S20000x2000, .f32⟩
  | 72 => ⟨S20000x2000, .f32⟩
  | 73 => ⟨S20000x500, .f32⟩
  | 74 => ⟨S_, .i32⟩
  | 75 => ⟨S120000, .i32⟩
  | 76 => ⟨S120000, .i1⟩
  | 77 => ⟨S_, .i32⟩
  | 78 => ⟨S120000, .i32⟩
  | 79 => ⟨S120000, .i32⟩
  | 80 => ⟨S120000, .i32⟩
  | 81 => ⟨S120000x1, .i32⟩
  | 82 => ⟨S120000, .f32⟩
  | 83 => ⟨S_, .i32⟩
  | 84 => ⟨S120000, .i32⟩
  | 85 => ⟨S120000, .i1⟩
  | 86 => ⟨S_, .i32⟩
  | 87 => ⟨S120000, .i32⟩
  | 88 => ⟨S120000, .i32⟩
  | 89 => ⟨S120000, .i32⟩
  | 90 => ⟨S120000x1, .i32⟩
  | 91 => ⟨S120000, .f32⟩
  | 92 => ⟨S120000, .f32⟩
  | 93 => ⟨S_, .i32⟩
  | 94 => ⟨S120000, .i32⟩
  | 95 => ⟨S120000, .i1⟩
  | 96 => ⟨S_, .i32⟩
  | 97 => ⟨S120000, .i32⟩
  | 98 => ⟨S120000, .i32⟩
  | 99 => ⟨S120000, .i32⟩
  | 100 => ⟨S120000x1, .i32⟩
  | 101 => ⟨S120000x500, .f32⟩
  | 102 => ⟨S120000x1, .f32⟩
  | 103 => ⟨S120000x500, .f32⟩
  | 104 => ⟨S120000x500, .f32⟩
  | 105 => ⟨S_, .f32⟩
  | 106 => ⟨S20000x500, .f32⟩
  | 107 => ⟨S120000x1, .i32⟩
  | 108 => ⟨S20000x500, .f32⟩
  | 109 => ⟨S1x500, .f32⟩
  | 110 => ⟨S20000x500, .f32⟩
  | 111 => ⟨S20000x500, .f32⟩
  | 112 => ⟨S_, .f32⟩
  | 113 => ⟨S20000x500, .f32⟩
  | 114 => ⟨S20000x500, .f32⟩
  | 115 => ⟨S20000x100, .f32⟩
  | 116 => ⟨S_, .i32⟩
  | 117 => ⟨S120000, .i32⟩
  | 118 => ⟨S120000, .i1⟩
  | 119 => ⟨S_, .i32⟩
  | 120 => ⟨S120000, .i32⟩
  | 121 => ⟨S120000, .i32⟩
  | 122 => ⟨S120000, .i32⟩
  | 123 => ⟨S120000x1, .i32⟩
  | 124 => ⟨S120000, .f32⟩
  | 125 => ⟨S_, .i32⟩
  | 126 => ⟨S120000, .i32⟩
  | 127 => ⟨S120000, .i1⟩
  | _ => ⟨S20000x3000, .f32⟩

abbrev hbmTy0_1 (i : Nat) : BufTy := match i % 128 with
  | 0 => ⟨S_, .i32⟩
  | 1 => ⟨S120000, .i32⟩
  | 2 => ⟨S120000, .i32⟩
  | 3 => ⟨S120000, .i32⟩
  | 4 => ⟨S120000x1, .i32⟩
  | 5 => ⟨S120000, .f32⟩
  | 6 => ⟨S120000, .f32⟩
  | 7 => ⟨S_, .i32⟩
  | 8 => ⟨S120000, .i32⟩
  | 9 => ⟨S120000, .i1⟩
  | 10 => ⟨S_, .i32⟩
  | 11 => ⟨S120000, .i32⟩
  | 12 => ⟨S120000, .i32⟩
  | 13 => ⟨S120000, .i32⟩
  | 14 => ⟨S120000x1, .i32⟩
  | 15 => ⟨S120000x100, .f32⟩
  | 16 => ⟨S120000x1, .f32⟩
  | 17 => ⟨S120000x100, .f32⟩
  | 18 => ⟨S120000x100, .f32⟩
  | 19 => ⟨S_, .f32⟩
  | 20 => ⟨S20000x100, .f32⟩
  | 21 => ⟨S120000x1, .i32⟩
  | 22 => ⟨S20000x100, .f32⟩
  | 23 => ⟨S1x100, .f32⟩
  | 24 => ⟨S20000x100, .f32⟩
  | 25 => ⟨S20000x100, .f32⟩
  | 26 => ⟨S_, .f32⟩
  | 27 => ⟨S20000x100, .f32⟩
  | 28 => ⟨S20000x100, .f32⟩
  | 29 => ⟨S20000x2, .f32⟩
  | 30 => ⟨S_, .i32⟩
  | 31 => ⟨S120000, .i32⟩
  | 32 => ⟨S120000, .i1⟩
  | 33 => ⟨S_, .i32⟩
  | 34 => ⟨S120000, .i32⟩
  | 35 => ⟨S120000, .i32⟩
  | 36 => ⟨S120000, .i32⟩
  | 37 => ⟨S120000x1, .i32⟩
  | 38 => ⟨S120000, .f32⟩
  | 39 => ⟨S_, .i32⟩
  | 40 => ⟨S120000, .i32⟩
  | 41 => ⟨S120000, .i1⟩
  | 42 => ⟨S_, .i32⟩
  | 43 => ⟨S120000, .i32⟩
  | 44 => ⟨S120000, .i32⟩
  | 45 => ⟨S120000, .i32⟩
  | 46 => ⟨S120000x1, .i32⟩
  | 47 => ⟨S120000, .f32⟩
  | 48 => ⟨S120000, .f32⟩
  | 49 => ⟨S_, .i32⟩
  | 50 => ⟨S120000, .i32⟩
  | 51 => ⟨S120000, .i1⟩
  | 52 => ⟨S_, .i32⟩
  | 53 => ⟨S120000, .i32⟩
  | 54 => ⟨S120000, .i32⟩
  | 55 => ⟨S120000, .i32⟩
  | 56 => ⟨S120000x1, .i32⟩
  | 57 => ⟨S120000x2, .f32⟩
  | 58 => ⟨S120000x1, .f32⟩
  | 59 => ⟨S120000x2, .f32⟩
  | 60 => ⟨S120000x2, .f32⟩
  | 61 => ⟨S_, .f32⟩
  | 62 => ⟨S20000x2, .f32⟩
  | 63 => ⟨S120000x1, .i32⟩
  | 64 => ⟨S20000x2, .f32⟩
  | 65 => ⟨S1x2, .f32⟩
  | 66 => ⟨S20000x2, .f32⟩
  | 67 => ⟨S20000x2, .f32⟩
  | _ => ⟨S20000x3000, .f32⟩

abbrev hbmTy (i : Nat) : BufTy := match i / 128 with
  | 0 => hbmTy0_0 i
  | 1 => hbmTy0_1 i
  | _ => ⟨S20000x3000, .f32⟩

abbrev bufTy : (tb : Table) → Fin (tcTables nBuf tb) → BufTy
  | .hbm, ⟨i, _⟩ => hbmTy i
  | _, _ => ⟨S20000x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_11 : Ref sig .tc := ⟨.hbm, 83, rfl⟩
abbrev main_v58 : Ref sig .tc := ⟨.hbm, 84, rfl⟩
abbrev main_v59 : Ref sig .tc := ⟨.hbm, 85, rfl⟩
abbrev main_c_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_call1_cst : Ref sig .tc := ⟨.hbm, 112, rfl⟩
abbrev main_call1_v0 : Ref sig .tc := ⟨.hbm, 113, rfl⟩
abbrev main_v82 : Ref sig .tc := ⟨.hbm, 114, rfl⟩
abbrev main_v83 : Ref sig .tc := ⟨.hbm, 115, rfl⟩
abbrev main_c_16 : Ref sig .tc := ⟨.hbm, 116, rfl⟩
abbrev main_v84 : Ref sig .tc := ⟨.hbm, 117, rfl⟩
abbrev main_v85 : Ref sig .tc := ⟨.hbm, 118, rfl⟩
abbrev main_c_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_18 : Ref sig .tc := ⟨.hbm, 125, rfl⟩
abbrev main_v91 : Ref sig .tc := ⟨.hbm, 126, rfl⟩
abbrev main_v92 : Ref sig .tc := ⟨.hbm, 127, rfl⟩
abbrev main_c_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_20 : Ref sig .tc := ⟨.hbm, 135, rfl⟩
abbrev main_v99 : Ref sig .tc := ⟨.hbm, 136, rfl⟩
abbrev main_v100 : Ref sig .tc := ⟨.hbm, 137, rfl⟩
abbrev main_c_21 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_22 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_call2_cst : Ref sig .tc := ⟨.hbm, 154, rfl⟩
abbrev main_call2_v0 : Ref sig .tc := ⟨.hbm, 155, rfl⟩
abbrev main_v115 : Ref sig .tc := ⟨.hbm, 156, rfl⟩
abbrev main_v116 : Ref sig .tc := ⟨.hbm, 157, rfl⟩
abbrev main_c_23 : Ref sig .tc := ⟨.hbm, 158, rfl⟩
abbrev main_v117 : Ref sig .tc := ⟨.hbm, 159, rfl⟩
abbrev main_v118 : Ref sig .tc := ⟨.hbm, 160, rfl⟩
abbrev main_c_24 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_25 : Ref sig .tc := ⟨.hbm, 167, rfl⟩
abbrev main_v124 : Ref sig .tc := ⟨.hbm, 168, rfl⟩
abbrev main_v125 : Ref sig .tc := ⟨.hbm, 169, rfl⟩
abbrev main_c_26 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_c_27 : Ref sig .tc := ⟨.hbm, 177, rfl⟩
abbrev main_v132 : Ref sig .tc := ⟨.hbm, 178, rfl⟩
abbrev main_v133 : Ref sig .tc := ⟨.hbm, 179, rfl⟩
abbrev main_c_28 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_29 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  concatenates_S100000_S20000_S120000_d0 : Shape.Concatenates [S100000, S20000] S120000 0
  slices_S2x100000_S1x100000_1_0 : S2x100000.Slices ![1, 0] S1x100000
  bcast_S_S20000 : S_.BroadcastsInDim S20000 (![] : Fin 0 → Fin S20000.rank)
  bcast_S_S120000 : S_.BroadcastsInDim S120000 (![] : Fin 0 → Fin S120000.rank)
  bcast_S120000_S120000x1_0 : S120000.BroadcastsInDim S120000x1 (![0] : Fin 1 → Fin S120000x1.rank)
  bcast_S120000x1_S120000x2000_0_1 : S120000x1.BroadcastsInDim S120000x2000 (![0, 1] : Fin 2 → Fin S120000x2000.rank)
  bcast_S_S20000x2000 : S_.BroadcastsInDim S20000x2000 (![] : Fin 0 → Fin S20000x2000.rank)
  bcast_S2000_S1x2000_1 : S2000.BroadcastsInDim S1x2000 (![1] : Fin 1 → Fin S1x2000.rank)
  bcast_S1x2000_S20000x2000_0_1 : S1x2000.BroadcastsInDim S20000x2000 (![0, 1] : Fin 2 → Fin S20000x2000.rank)
  bcast_S120000x1_S120000x500_0_1 : S120000x1.BroadcastsInDim S120000x500 (![0, 1] : Fin 2 → Fin S120000x500.rank)
  bcast_S_S20000x500 : S_.BroadcastsInDim S20000x500 (![] : Fin 0 → Fin S20000x500.rank)
  bcast_S500_S1x500_1 : S500.BroadcastsInDim S1x500 (![1] : Fin 1 → Fin S1x500.rank)
  bcast_S1x500_S20000x500_0_1 : S1x500.BroadcastsInDim S20000x500 (![0, 1] : Fin 2 → Fin S20000x500.rank)
  bcast_S120000x1_S120000x100_0_1 : S120000x1.BroadcastsInDim S120000x100 (![0, 1] : Fin 2 → Fin S120000x100.rank)
  bcast_S_S20000x100 : S_.BroadcastsInDim S20000x100 (![] : Fin 0 → Fin S20000x100.rank)
  bcast_S100_S1x100_1 : S100.BroadcastsInDim S1x100 (![1] : Fin 1 → Fin S1x100.rank)
  bcast_S1x100_S20000x100_0_1 : S1x100.BroadcastsInDim S20000x100 (![0, 1] : Fin 2 → Fin S20000x100.rank)
  bcast_S120000x1_S120000x2_0_1 : S120000x1.BroadcastsInDim S120000x2 (![0, 1] : Fin 2 → Fin S120000x2.rank)
  bcast_S_S20000x2 : S_.BroadcastsInDim S20000x2 (![] : Fin 0 → Fin S20000x2.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  scatter_S20000_S120000x1_S120000_n_0_0_1_wf : ScatterDims.WF S20000 S120000x1 S120000 [] [0] [0] 1
  dot_S20000x3000_S3000x2000_S20000x2000_1_0_0_1_n_n_wf : DotDims.WF S20000x3000 S3000x2000 S20000x2000 [1] [0] [0] [1] [] []
  gather_S20000_S120000x1_S120000_n_0_n_n_0_1_1_wf : GatherDims.WF S20000 S120000x1 S120000 [] [0] [] [0] [] 1 ![1]
  gather_S20000x2000_S120000x1_S120000x2000_1_0_n_n_0_1_12000_wf : GatherDims.WF S20000x2000 S120000x1 S120000x2000 [1] [0] [] [0] [] 1 ![1, 2000]
  scatter_S20000x2000_S120000x1_S120000x2000_1_0_0_1_wf : ScatterDims.WF S20000x2000 S120000x1 S120000x2000 [1] [0] [0] 1
  dot_S20000x2000_S2000x500_S20000x500_1_0_0_1_n_n_wf : DotDims.WF S20000x2000 S2000x500 S20000x500 [1] [0] [0] [1] [] []
  gather_S20000x500_S120000x1_S120000x500_1_0_n_n_0_1_1500_wf : GatherDims.WF S20000x500 S120000x1 S120000x500 [1] [0] [] [0] [] 1 ![1, 500]
  scatter_S20000x500_S120000x1_S120000x500_1_0_0_1_wf : ScatterDims.WF S20000x500 S120000x1 S120000x500 [1] [0] [0] 1
  dot_S20000x500_S500x100_S20000x100_1_0_0_1_n_n_wf : DotDims.WF S20000x500 S500x100 S20000x100 [1] [0] [0] [1] [] []
  gather_S20000x100_S120000x1_S120000x100_1_0_n_n_0_1_1100_wf : GatherDims.WF S20000x100 S120000x1 S120000x100 [1] [0] [] [0] [] 1 ![1, 100]
  scatter_S20000x100_S120000x1_S120000x100_1_0_0_1_wf : ScatterDims.WF S20000x100 S120000x1 S120000x100 [1] [0] [0] 1
  dot_S20000x100_S100x2_S20000x2_1_0_0_1_n_n_wf : DotDims.WF S20000x100 S100x2 S20000x2 [1] [0] [0] [1] [] []
  gather_S20000x2_S120000x1_S120000x2_1_0_n_n_0_1_12_wf : GatherDims.WF S20000x2 S120000x1 S120000x2 [1] [0] [] [0] [] 1 ![1, 2]
  scatter_S20000x2_S120000x1_S120000x2_1_0_0_1_wf : ScatterDims.WF S20000x2 S120000x1 S120000x2 [1] [0] [0] 1

variable [Facts₀]

def scatter_S20000_S120000x1_S120000_n_0_0_1 : ScatterDims S20000 S120000x1 S120000 where
  updateWindowDims := []
  insertedWindowDims := [0]
  scatterDimsToOperandDims := [0]
  indexVectorDim := 1
  wf := scatter_S20000_S120000x1_S120000_n_0_0_1_wf
def dot_S20000x3000_S3000x2000_S20000x2000_1_0_0_1_n_n : DotDims S20000x3000 S3000x2000 S20000x2000 where
  lhsContracting := [1]
  rhsContracting := [0]
  lhsNonContracting := [0]
  rhsNonContracting := [1]
  lhsBatch := []
  rhsBatch := []
  wf := dot_S20000x3000_S3000x2000_S20000x2000_1_0_0_1_n_n_wf
def gather_S20000_S120000x1_S120000_n_0_n_n_0_1_1 : GatherDims S20000 S120000x1 S120000 where
  offsetDims := []
  collapsedSliceDims := [0]
  operandBatchingDims := []
  startIndicesBatchingDims := []
  startIndexMap := [0]
  indexVectorDim := 1
  sliceSizes := ![1]
  wf := gather_S20000_S120000x1_S120000_n_0_n_n_0_1_1_wf
def gather_S20000x2000_S120000x1_S120000x2000_1_0_n_n_0_1_12000 : GatherDims S20000x2000 S120000x1 S120000x2000 where
  offsetDims := [1]
  collapsedSliceDims := [0]
  operandBatchingDims := []
  startIndicesBatchingDims := []
  startIndexMap := [0]
  indexVectorDim := 1
  sliceSizes := ![1, 2000]
  wf := gather_S20000x2000_S120000x1_S120000x2000_1_0_n_n_0_1_12000_wf
def scatter_S20000x2000_S120000x1_S120000x2000_1_0_0_1 : ScatterDims S20000x2000 S120000x1 S120000x2000 where
  updateWindowDims := [1]
  insertedWindowDims := [0]
  scatterDimsToOperandDims := [0]
  indexVectorDim := 1
  wf := scatter_S20000x2000_S120000x1_S120000x2000_1_0_0_1_wf
def dot_S20000x2000_S2000x500_S20000x500_1_0_0_1_n_n : DotDims S20000x2000 S2000x500 S20000x500 where
  lhsContracting := [1]
  rhsContracting := [0]
  lhsNonContracting := [0]
  rhsNonContracting := [1]
  lhsBatch := []
  rhsBatch := []
  wf := dot_S20000x2000_S2000x500_S20000x500_1_0_0_1_n_n_wf
def gather_S20000x500_S120000x1_S120000x500_1_0_n_n_0_1_1500 : GatherDims S20000x500 S120000x1 S120000x500 where
  offsetDims := [1]
  collapsedSliceDims := [0]
  operandBatchingDims := []
  startIndicesBatchingDims := []
  startIndexMap := [0]
  indexVectorDim := 1
  sliceSizes := ![1, 500]
  wf := gather_S20000x500_S120000x1_S120000x500_1_0_n_n_0_1_1500_wf
def scatter_S20000x500_S120000x1_S120000x500_1_0_0_1 : ScatterDims S20000x500 S120000x1 S120000x500 where
  updateWindowDims := [1]
  insertedWindowDims := [0]
  scatterDimsToOperandDims := [0]
  indexVectorDim := 1
  wf := scatter_S20000x500_S120000x1_S120000x500_1_0_0_1_wf
def dot_S20000x500_S500x100_S20000x100_1_0_0_1_n_n : DotDims S20000x500 S500x100 S20000x100 where
  lhsContracting := [1]
  rhsContracting := [0]
  lhsNonContracting := [0]
  rhsNonContracting := [1]
  lhsBatch := []
  rhsBatch := []
  wf := dot_S20000x500_S500x100_S20000x100_1_0_0_1_n_n_wf
def gather_S20000x100_S120000x1_S120000x100_1_0_n_n_0_1_1100 : GatherDims S20000x100 S120000x1 S120000x100 where
  offsetDims := [1]
  collapsedSliceDims := [0]
  operandBatchingDims := []
  startIndicesBatchingDims := []
  startIndexMap := [0]
  indexVectorDim := 1
  sliceSizes := ![1, 100]
  wf := gather_S20000x100_S120000x1_S120000x100_1_0_n_n_0_1_1100_wf
def scatter_S20000x100_S120000x1_S120000x100_1_0_0_1 : ScatterDims S20000x100 S120000x1 S120000x100 where
  updateWindowDims := [1]
  insertedWindowDims := [0]
  scatterDimsToOperandDims := [0]
  indexVectorDim := 1
  wf := scatter_S20000x100_S120000x1_S120000x100_1_0_0_1_wf
def dot_S20000x100_S100x2_S20000x2_1_0_0_1_n_n : DotDims S20000x100 S100x2 S20000x2 where
  lhsContracting := [1]
  rhsContracting := [0]
  lhsNonContracting := [0]
  rhsNonContracting := [1]
  lhsBatch := []
  rhsBatch := []
  wf := dot_S20000x100_S100x2_S20000x2_1_0_0_1_n_n_wf
def gather_S20000x2_S120000x1_S120000x2_1_0_n_n_0_1_12 : GatherDims S20000x2 S120000x1 S120000x2 where
  offsetDims := [1]
  collapsedSliceDims := [0]
  operandBatchingDims := []
  startIndicesBatchingDims := []
  startIndexMap := [0]
  indexVectorDim := 1
  sliceSizes := ![1, 2]
  wf := gather_S20000x2_S120000x1_S120000x2_1_0_n_n_0_1_12_wf
def scatter_S20000x2_S120000x1_S120000x2_1_0_0_1 : ScatterDims S20000x2 S120000x1 S120000x2 where
  updateWindowDims := [1]
  insertedWindowDims := [0]
  scatterDimsToOperandDims := [0]
  indexVectorDim := 1
  wf := scatter_S20000x2_S120000x1_S120000x2_1_0_0_1_wf

class Facts : Prop extends Facts₀ where

variable [Facts]
-- ==== Proof.KernelRun.lean ====
/-
  The kernel program's run with its result named.

  @main is fifteen segments: a stretch of host operations, then four times a pallas region followed by host
  operations. Every weakly fair execution from a memory with zero counters runs them in order and ends with every
  buffer that outlives @main at the contents the last boundary names (`W15`: the fold of the host stretches and of
  the regions' write-backs from the launch memory). Of that final state this keeps the result buffer, at `W15`, and
  the ten argument arrays, which no segment writes.
-/
import proofs.«115295_j12043088298517_1_alg».proof.Proof.Gen.KernelIdeal.Frame

set_option maxRecDepth 16384

noncomputable section

namespace Cert.KernelIdeal.FinalState

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v155) = W15 m ρ c (Proc.devRef .tc main_v155)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v155 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KernelIdeal.FinalState

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«115295_j12043088298517_1_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.LibRowTiles.lean ====
/-
  A row block of a matrix product, on the extended reals; and the product of operands whose float format was changed.

  Let `X` be an `M × K` array and `W` a `K × N` array. If the `R × K` array `x0` agrees, on its row `p`, with
  row `a` of `X`, and the `K × N` array `x1` agrees with `W` on column `q`, then the matrix unit's product of `x0`
  by `x1` into the zero array holds at `(p, q)` what the host's product of `X` by `W` holds at `(a, q)`: both are
  `∑ c, X[a,c] · W[c,q]`, one sum over the contracted position, in the same order; no term is moved, so nothing
  is asked of the entries (they may be infinite). Tiling a product by blocks of rows therefore changes nothing.

  On the extended reals a change of float format is the identity on every entry, so the host's product of two
  arrays narrowed to another format is the host's product of the arrays themselves (`dotGeneral_truncf`).
-/
import proofs.«115295_j12043088298517_1_alg».proof.Proof.LibPlainDot

noncomputable section

open scoped BigOperators

namespace Idealize.ShloMosaic.RowTiles

open Idealize.ShloMosaic Idealize.ShloMosaic.ValueIdx Idealize.ShloMosaic.PlainMatmul Idealize.ShloMosaic.PlainDot

variable {M K N R : Nat}

/-- **One entry of a row block of the product.** Row `p` of the block is row `a` of the whole left factor; the right
    factor is whole. -/
theorem tile_entry {φ₁ φ₂ : FTy} (prec prec' : Option ContractPrecision) (sched : HostSchedule)
    (X : FVec Ideal ⟨2, ![M, K]⟩ φ₁) (W : FVec Ideal ⟨2, ![K, N]⟩ φ₂)
    (x0 : FVec Ideal ⟨2, ![R, K]⟩ φ₁) (x1 : FVec Ideal ⟨2, ![K, N]⟩ φ₂) (p : Fin R) (q : Fin N) (a : Fin M)
    (h0 : ∀ c : Fin K, x0 (ix2 p c) = X (ix2 a c)) (h1 : ∀ c : Fin K, x1 (ix2 c q) = W (ix2 c q)) :
    FloatOps.matmul (DotDims.plain R K N) prec x0 x1 (constant ⟨2, ![R, N]⟩ .f32 0x00000000#32) (ix2 p q)
      = FloatOps.dotGeneral (DotDims.plain M K N) prec' sched X W (ix2 a q) := by
  rw [matmul_zero_apply, dotGeneral_apply_entry]
  exact Finset.sum_congr rfl fun c _ => by rw [h0 c, h1 c]

/-- **The host's product does not see its operands' format**: narrowing both operands first changes no entry. -/
theorem dotGeneral_truncf (prec prec' : Option ContractPrecision) (sched : HostSchedule)
    (X : FVec Ideal ⟨2, ![M, K]⟩ .f32) (W : FVec Ideal ⟨2, ![K, N]⟩ .f32)
    (h : FTy.bits .bf16 < FTy.bits .f32) :
    FloatOps.dotGeneral (DotDims.plain M K N) prec sched (truncf .bf16 X h) (truncf .bf16 W h)
      = FloatOps.dotGeneral (DotDims.plain M K N) prec' sched X W := by
  funext i
  obtain ⟨a, b, rfl⟩ : ∃ (a : Fin M) (b : Fin N), i = ix2 a b := ⟨i 0, i 1, eq_ix2 i⟩
  rw [dotGeneral_apply_entry, dotGeneral_apply_entry]
  rfl

end Idealize.ShloMosaic.RowTiles

end
-- ==== Proof.TiledProduct0.lean ====
/-
  The output array of pallas region 0 is the whole matrix product.

  The region multiplies a 20000 × 3000 array by a 3000 × 2000 array in 25 blocks of 800 rows: at grid point `t` it loads rows
  `800·t … 800·t + 799` of the left factor and the whole right factor, multiplies them into the zero array, and writes
  the 800 × 2000 result back as rows `800·t … 800·t + 799` of the output. Entry `(p, q)` of block `t` is
  `∑ c, X[800·t + p, c] · W[c, q]`, which is entry `(800·t + p, q)` of the host's product `X · W`; row `r` of the
  output lies in block `r / 800`, so the 25 blocks cover the array, and after the region the array holds `X · W`
  whatever it held before. `V` is the contents of the buffers when the region is entered.
-/
import proofs.«115295_j12043088298517_1_alg».proof.Proof.Gen.KernelIdeal.Frame
import proofs.«115295_j12043088298517_1_alg».proof.Proof.LibRowTiles
import Idealize.ShloMosaic.Lib.Pipeline.Value
import Idealize.ShloMosaic.Lib.ValueIdx

set_option maxRecDepth 16384

noncomputable section

namespace Cert.KernelIdeal.TiledProduct0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The host's product of the whole factors. -/
def product (X : FVec Ideal S20000x3000 .bf16) (W : FVec Ideal S3000x2000 .bf16) : FVec Ideal S20000x2000 .f32 :=
  Host.dotGeneral (DotDims.plain 20000 3000 2000) none X W

/-- The body's stored value at an entry of the block: if row `p` of the loaded left block is row `a` of `X` and the
    loaded right block is `W`, it is entry `(a, q)` of `X · W`. -/
theorem payload_entry (x0 : Vec Ideal S800x3000 .bf16) (x1 : Vec Ideal S3000x2000 .bf16) (X : FVec Ideal S20000x3000 .bf16)
    (W : FVec Ideal S3000x2000 .bf16) (p : Fin 800) (q : Fin 2000) (a : Fin 20000)
    (h0 : ∀ k : Fin 3000, x0 (ix2 p k) = X (ix2 a k)) (h1 : ∀ k : Fin 3000, x1 (ix2 k q) = W (ix2 k q)) :
    k0_pay1 x0 x1 (ix2 p q) = product X W (ix2 a q) := by
  unfold k0_pay1 product
  simp only [shapeCast_self]
  exact RowTiles.tile_entry (M := 20000) (K := 3000) (N := 2000) (R := 800) none none .single X W x0 x1 p q a h0 h1

/-- The printed index maps over the 25 grid points: the left factor's and the output's block row is the point,
    every other block coordinate is zero. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the arrays the region finds. -/
theorem flushed_eq (c : Dev nD) (t : Fin cfg0.N) :
    (dat0 V c).flushed 2 t
      = ((cfg0.win 2).blk t).view.read (Elt Ideal) (product (V c main_v17) (V c main_v18)) := by
  show (cfg0.win 2).cut (grid0.coords t) ((dat0 V c).after 2 t) = _
  rw [after0_2]
  unfold out0_2
  rw [View.canon_unit_zero zero_offsets]
  simp only [View.ld_unit_zero (S := S800x3000) zero_offsets, View.ld_unit_zero (S := S3000x2000) zero_offsets]
  obtain ⟨e0, e1, e2, e3, e4, e5⟩ := index_facts t
  have hN : cfg0.N = 25 := N_0
  funext j
  obtain ⟨p, q, rfl⟩ : ∃ (p : Fin 800) (q : Fin 2000), j = ix2 p q := ⟨j 0, j 1, eq_ix2 j⟩
  have hrow : t.val * 800 + p.val < 20000 := by have h1 := t.isLt; have h2 := p.isLt; omega
  show k0_pay1 (iblk0 V c 0 t) (iblk0 V c 1 t) (ix2 p q)
    = product (V c main_v17) (V c main_v18) (((cfg0.win 2).blk t).view.emb (ix2 p q))
  have hemb : ((cfg0.win 2).blk t).view.emb (ix2 p q) = ix2 (⟨t.val * 800 + p.val, hrow⟩ : Fin 20000) q := by
    funext a; apply Fin.ext
    match a with
    | ⟨0, _⟩ => show win0_2.index t (0 : Fin 2) * 800 + 1 * p.val = t.val * 800 + p.val; omega
    | ⟨1, _⟩ => show win0_2.index t (1 : Fin 2) * 2000 + 1 * q.val = q.val; omega
  rw [hemb]
  refine payload_entry (iblk0 V c 0 t) (iblk0 V c 1 t) (V c main_v17) (V c main_v18) p q ⟨t.val * 800 + p.val, hrow⟩ (fun k => ?_) (fun k => ?_)
  · show V c main_v17 (((cfg0.win 0).blk t).view.emb (ix2 p k)) = V c main_v17 (ix2 (⟨t.val * 800 + p.val, hrow⟩ : Fin 20000) k)
    refine congrArg _ ?_
    funext a; apply Fin.ext
    match a with
    | ⟨0, _⟩ => show win0_0.index t (0 : Fin 2) * 800 + 1 * p.val = t.val * 800 + p.val; omega
    | ⟨1, _⟩ => show win0_0.index t (1 : Fin 2) * 3000 + 1 * k.val = k.val; omega
  · show V c main_v18 (((cfg0.win 1).blk t).view.emb (ix2 k q)) = V c main_v18 (ix2 k q)
    refine congrArg _ ?_
    funext a; apply Fin.ext
    match a with
    | ⟨0, _⟩ => show win0_1.index t (0 : Fin 2) * 3000 + 1 * k.val = k.val; omega
    | ⟨1, _⟩ => show win0_1.index t (1 : Fin 2) * 2000 + 1 * q.val = q.val; omega

/-- An index of the output array is in point `t`'s block iff each coordinate is in the block's range on its axis. -/
theorem mem_block (t : Fin cfg0.N) (i : S20000x2000.Idx) :
    i ∈ ((cfg0.win 2).blk t).view.set ↔ ∀ a : Fin 2, win0_2.index t a * S800x2000.size a ≤ (i a).val
      ∧ (i a).val < win0_2.index t a * S800x2000.size a + S800x2000.size a := by
  show i ∈ ((View.whole main_v19).slice (win0_2.rect t)).set ↔ _
  rw [View.set_slice_whole, Rect.mem_set_unit]
  exact Iff.rfl

/-- After the region the output array is the product of the arrays the region found: row `r` is written by point
    `r / 800`. -/
theorem final (c : Dev nD) : (dat0 V c).arrAt 2 cfg0.N = product (V c main_v17) (V c main_v18) :=
  (dat0 V c).arrAt_eq_of_cover 2 (product (V c main_v17) (V c main_v18)) (fun t _ => flushed_eq V c t) fun i => by
    have hi0 : (i 0).val < 20000 := (i 0).isLt
    have hi1 : (i 1).val < 2000 := (i 1).isLt
    have hN : cfg0.N = 25 := N_0
    have ht : (i 0).val / 800 < cfg0.N := by rw [hN]; omega
    obtain ⟨e0, e1, e2, e3, e4, e5⟩ := index_facts ⟨(i 0).val / 800, ht⟩
    refine ⟨⟨(i 0).val / 800, ht⟩, flush0_2 _, ?_⟩
    rw [mem_block]
    intro a
    match a with
    | ⟨0, _⟩ =>
      show win0_2.index ⟨(i 0).val / 800, ht⟩ (0 : Fin 2) * 800 ≤ (i 0).val
        ∧ (i 0).val < win0_2.index ⟨(i 0).val / 800, ht⟩ (0 : Fin 2) * 800 + 800
      rw [e4]; show (i 0).val / 800 * 800 ≤ (i 0).val ∧ (i 0).val < (i 0).val / 800 * 800 + 800; omega
    | ⟨1, _⟩ =>
      show win0_2.index ⟨(i 0).val / 800, ht⟩ (1 : Fin 2) * 2000 ≤ (i 1).val
        ∧ (i 1).val < win0_2.index ⟨(i 0).val / 800, ht⟩ (1 : Fin 2) * 2000 + 2000
      rw [e5]; omega

end Cert.KernelIdeal.TiledProduct0

end
-- ==== Proof.TiledProduct1.lean ====
/-
  The output array of pallas region 1 is the whole matrix product.

  The region multiplies a 20000 × 2000 array by a 2000 × 500 array in 25 blocks of 800 rows: at grid point `t` it loads rows
  `800·t … 800·t + 799` of the left factor and the whole right factor, multiplies them into the zero array, and writes
  the 800 × 500 result back as rows `800·t … 800·t + 799` of the output. Entry `(p, q)` of block `t` is
  `∑ c, X[800·t + p, c] · W[c, q]`, which is entry `(800·t + p, q)` of the host's product `X · W`; row `r` of the
  output lies in block `r / 800`, so the 25 blocks cover the array, and after the region the array holds `X · W`
  whatever it held before. `V` is the contents of the buffers when the region is entered.
-/
import proofs.«115295_j12043088298517_1_alg».proof.Proof.Gen.KernelIdeal.Frame
import proofs.«115295_j12043088298517_1_alg».proof.Proof.LibRowTiles
import Idealize.ShloMosaic.Lib.Pipeline.Value
import Idealize.ShloMosaic.Lib.ValueIdx

set_option maxRecDepth 16384

noncomputable section

namespace Cert.KernelIdeal.TiledProduct1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The host's product of the whole factors. -/
def product (X : FVec Ideal S20000x2000 .bf16) (W : FVec Ideal S2000x500 .bf16) : FVec Ideal S20000x500 .f32 :=
  Host.dotGeneral (DotDims.plain 20000 2000 500) none X W

/-- The body's stored value at an entry of the block: if row `p` of the loaded left block is row `a` of `X` and the
    loaded right block is `W`, it is entry `(a, q)` of `X · W`. -/
theorem payload_entry (x0 : Vec Ideal S800x2000 .bf16) (x1 : Vec Ideal S2000x500 .bf16) (X : FVec Ideal S20000x2000 .bf16)
    (W : FVec Ideal S2000x500 .bf16) (p : Fin 800) (q : Fin 500) (a : Fin 20000)
    (h0 : ∀ k : Fin 2000, x0 (ix2 p k) = X (ix2 a k)) (h1 : ∀ k : Fin 2000, x1 (ix2 k q) = W (ix2 k q)) :
    k1_pay1 x0 x1 (ix2 p q) = product X W (ix2 a q) := by
  unfold k1_pay1 product
  simp only [shapeCast_self]
  exact RowTiles.tile_entry (M := 20000) (K := 2000) (N := 500) (R := 800) none none .single X W x0 x1 p q a h0 h1

/-- The printed index maps over the 25 grid points: the left factor's and the output's block row is the point,
    every other block coordinate is zero. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the arrays the region finds. -/
theorem flushed_eq (c : Dev nD) (t : Fin cfg1.N) :
    (dat1 V c).flushed 2 t
      = ((cfg1.win 2).blk t).view.read (Elt Ideal) (product (V c main_v52) (V c main_v53)) := by
  show (cfg1.win 2).cut (grid1.coords t) ((dat1 V c).after 2 t) = _
  rw [after1_2]
  unfold out1_2
  rw [View.canon_unit_zero zero_offsets]
  simp only [View.ld_unit_zero (S := S800x2000) zero_offsets, View.ld_unit_zero (S := S2000x500) zero_offsets]
  obtain ⟨e0, e1, e2, e3, e4, e5⟩ := index_facts t
  have hN : cfg1.N = 25 := N_1
  funext j
  obtain ⟨p, q, rfl⟩ : ∃ (p : Fin 800) (q : Fin 500), j = ix2 p q := ⟨j 0, j 1, eq_ix2 j⟩
  have hrow : t.val * 800 + p.val < 20000 := by have h1 := t.isLt; have h2 := p.isLt; omega
  show k1_pay1 (iblk1 V c 0 t) (iblk1 V c 1 t) (ix2 p q)
    = product (V c main_v52) (V c main_v53) (((cfg1.win 2).blk t).view.emb (ix2 p q))
  have hemb : ((cfg1.win 2).blk t).view.emb (ix2 p q) = ix2 (⟨t.val * 800 + p.val, hrow⟩ : Fin 20000) q := by
    funext a; apply Fin.ext
    match a with
    | ⟨0, _⟩ => show win1_2.index t (0 : Fin 2) * 800 + 1 * p.val = t.val * 800 + p.val; omega
    | ⟨1, _⟩ => show win1_2.index t (1 : Fin 2) * 500 + 1 * q.val = q.val; omega
  rw [hemb]
  refine payload_entry (iblk1 V c 0 t) (iblk1 V c 1 t) (V c main_v52) (V c main_v53) p q ⟨t.val * 800 + p.val, hrow⟩ (fun k => ?_) (fun k => ?_)
  · show V c main_v52 (((cfg1.win 0).blk t).view.emb (ix2 p k)) = V c main_v52 (ix2 (⟨t.val * 800 + p.val, hrow⟩ : Fin 20000) k)
    refine congrArg _ ?_
    funext a; apply Fin.ext
    match a with
    | ⟨0, _⟩ => show win1_0.index t (0 : Fin 2) * 800 + 1 * p.val = t.val * 800 + p.val; omega
    | ⟨1, _⟩ => show win1_0.index t (1 : Fin 2) * 2000 + 1 * k.val = k.val; omega
  · show V c main_v53 (((cfg1.win 1).blk t).view.emb (ix2 k q)) = V c main_v53 (ix2 k q)
    refine congrArg _ ?_
    funext a; apply Fin.ext
    match a with
    | ⟨0, _⟩ => show win1_1.index t (0 : Fin 2) * 2000 + 1 * k.val = k.val; omega
    | ⟨1, _⟩ => show win1_1.index t (1 : Fin 2) * 500 + 1 * q.val = q.val; omega

/-- An index of the output array is in point `t`'s block iff each coordinate is in the block's range on its axis. -/
theorem mem_block (t : Fin cfg1.N) (i : S20000x500.Idx) :
    i ∈ ((cfg1.win 2).blk t).view.set ↔ ∀ a : Fin 2, win1_2.index t a * S800x500.size a ≤ (i a).val
      ∧ (i a).val < win1_2.index t a * S800x500.size a + S800x500.size a := by
  show i ∈ ((View.whole main_v54).slice (win1_2.rect t)).set ↔ _
  rw [View.set_slice_whole, Rect.mem_set_unit]
  exact Iff.rfl

/-- After the region the output array is the product of the arrays the region found: row `r` is written by point
    `r / 800`. -/
theorem final (c : Dev nD) : (dat1 V c).arrAt 2 cfg1.N = product (V c main_v52) (V c main_v53) :=
  (dat1 V c).arrAt_eq_of_cover 2 (product (V c main_v52) (V c main_v53)) (fun t _ => flushed_eq V c t) fun i => by
    have hi0 : (i 0).val < 20000 := (i 0).isLt
    have hi1 : (i 1).val < 500 := (i 1).isLt
    have hN : cfg1.N = 25 := N_1
    have ht : (i 0).val / 800 < cfg1.N := by rw [hN]; omega
    obtain ⟨e0, e1, e2, e3, e4, e5⟩ := index_facts ⟨(i 0).val / 800, ht⟩
    refine ⟨⟨(i 0).val / 800, ht⟩, flush1_2 _, ?_⟩
    rw [mem_block]
    intro a
    match a with
    | ⟨0, _⟩ =>
      show win1_2.index ⟨(i 0).val / 800, ht⟩ (0 : Fin 2) * 800 ≤ (i 0).val
        ∧ (i 0).val < win1_2.index ⟨(i 0).val / 800, ht⟩ (0 : Fin 2) * 800 + 800
      rw [e4]; show (i 0).val / 800 * 800 ≤ (i 0).val ∧ (i 0).val < (i 0).val / 800 * 800 + 800; omega
    | ⟨1, _⟩ =>
      show win1_2.index ⟨(i 0).val / 800, ht⟩ (1 : Fin 2) * 500 ≤ (i 1).val
        ∧ (i 1).val < win1_2.index ⟨(i 0).val / 800, ht⟩ (1 : Fin 2) * 500 + 500
      rw [e5]; omega

end Cert.KernelIdeal.TiledProduct1

end
-- ==== Proof.TiledProduct2.lean ====
/-
  The output array of pallas region 2 is the whole matrix product.

  The region multiplies a 20000 × 500 array by a 500 × 100 array in 25 blocks of 800 rows: at grid point `t` it loads rows
  `800·t … 800·t + 799` of the left factor and the whole right factor, multiplies them into the zero array, and writes
  the 800 × 100 result back as rows `800·t … 800·t + 799` of the output. Entry `(p, q)` of block `t` is
  `∑ c, X[800·t + p, c] · W[c, q]`, which is entry `(800·t + p, q)` of the host's product `X · W`; row `r` of the
  output lies in block `r / 800`, so the 25 blocks cover the array, and after the region the array holds `X · W`
  whatever it held before. `V` is the contents of the buffers when the region is entered.
-/
import proofs.«115295_j12043088298517_1_alg».proof.Proof.Gen.KernelIdeal.Frame
import proofs.«115295_j12043088298517_1_alg».proof.Proof.LibRowTiles
import Idealize.ShloMosaic.Lib.Pipeline.Value
import Idealize.ShloMosaic.Lib.ValueIdx

set_option maxRecDepth 16384

noncomputable section

namespace Cert.KernelIdeal.TiledProduct2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The host's product of the whole factors. -/
def product (X : FVec Ideal S20000x500 .bf16) (W : FVec Ideal S500x100 .bf16) : FVec Ideal S20000x100 .f32 :=
  Host.dotGeneral (DotDims.plain 20000 500 100) none X W

/-- The body's stored value at an entry of the block: if row `p` of the loaded left block is row `a` of `X` and the
    loaded right block is `W`, it is entry `(a, q)` of `X · W`. -/
theorem payload_entry (x0 : Vec Ideal S800x500 .bf16) (x1 : Vec Ideal S500x100 .bf16) (X : FVec Ideal S20000x500 .bf16)
    (W : FVec Ideal S500x100 .bf16) (p : Fin 800) (q : Fin 100) (a : Fin 20000)
    (h0 : ∀ k : Fin 500, x0 (ix2 p k) = X (ix2 a k)) (h1 : ∀ k : Fin 500, x1 (ix2 k q) = W (ix2 k q)) :
    k2_pay1 x0 x1 (ix2 p q) = product X W (ix2 a q) := by
  unfold k2_pay1 product
  simp only [shapeCast_self]
  exact RowTiles.tile_entry (M := 20000) (K := 500) (N := 100) (R := 800) none none .single X W x0 x1 p q a h0 h1

/-- The printed index maps over the 25 grid points: the left factor's and the output's block row is the point,
    every other block coordinate is zero. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the arrays the region finds. -/
theorem flushed_eq (c : Dev nD) (t : Fin cfg2.N) :
    (dat2 V c).flushed 2 t
      = ((cfg2.win 2).blk t).view.read (Elt Ideal) (product (V c main_v87) (V c main_v88)) := by
  show (cfg2.win 2).cut (grid2.coords t) ((dat2 V c).after 2 t) = _
  rw [after2_2]
  unfold out2_2
  rw [View.canon_unit_zero zero_offsets]
  simp only [View.ld_unit_zero (S := S800x500) zero_offsets, View.ld_unit_zero (S := S500x100) zero_offsets]
  obtain ⟨e0, e1, e2, e3, e4, e5⟩ := index_facts t
  have hN : cfg2.N = 25 := N_2
  funext j
  obtain ⟨p, q, rfl⟩ : ∃ (p : Fin 800) (q : Fin 100), j = ix2 p q := ⟨j 0, j 1, eq_ix2 j⟩
  have hrow : t.val * 800 + p.val < 20000 := by have h1 := t.isLt; have h2 := p.isLt; omega
  show k2_pay1 (iblk2 V c 0 t) (iblk2 V c 1 t) (ix2 p q)
    = product (V c main_v87) (V c main_v88) (((cfg2.win 2).blk t).view.emb (ix2 p q))
  have hemb : ((cfg2.win 2).blk t).view.emb (ix2 p q) = ix2 (⟨t.val * 800 + p.val, hrow⟩ : Fin 20000) q := by
    funext a; apply Fin.ext
    match a with
    | ⟨0, _⟩ => show win2_2.index t (0 : Fin 2) * 800 + 1 * p.val = t.val * 800 + p.val; omega
    | ⟨1, _⟩ => show win2_2.index t (1 : Fin 2) * 100 + 1 * q.val = q.val; omega
  rw [hemb]
  refine payload_entry (iblk2 V c 0 t) (iblk2 V c 1 t) (V c main_v87) (V c main_v88) p q ⟨t.val * 800 + p.val, hrow⟩ (fun k => ?_) (fun k => ?_)
  · show V c main_v87 (((cfg2.win 0).blk t).view.emb (ix2 p k)) = V c main_v87 (ix2 (⟨t.val * 800 + p.val, hrow⟩ : Fin 20000) k)
    refine congrArg _ ?_
    funext a; apply Fin.ext
    match a with
    | ⟨0, _⟩ => show win2_0.index t (0 : Fin 2) * 800 + 1 * p.val = t.val * 800 + p.val; omega
    | ⟨1, _⟩ => show win2_0.index t (1 : Fin 2) * 500 + 1 * k.val = k.val; omega
  · show V c main_v88 (((cfg2.win 1).blk t).view.emb (ix2 k q)) = V c main_v88 (ix2 k q)
    refine congrArg _ ?_
    funext a; apply Fin.ext
    match a with
    | ⟨0, _⟩ => show win2_1.index t (0 : Fin 2) * 500 + 1 * k.val = k.val; omega
    | ⟨1, _⟩ => show win2_1.index t (1 : Fin 2) * 100 + 1 * q.val = q.val; omega

/-- An index of the output array is in point `t`'s block iff each coordinate is in the block's range on its axis. -/
theorem mem_block (t : Fin cfg2.N) (i : S20000x100.Idx) :
    i ∈ ((cfg2.win 2).blk t).view.set ↔ ∀ a : Fin 2, win2_2.index t a * S800x100.size a ≤ (i a).val
      ∧ (i a).val < win2_2.index t a * S800x100.size a + S800x100.size a := by
  show i ∈ ((View.whole main_v89).slice (win2_2.rect t)).set ↔ _
  rw [View.set_slice_whole, Rect.mem_set_unit]
  exact Iff.rfl

/-- After the region the output array is the product of the arrays the region found: row `r` is written by point
    `r / 800`. -/
theorem final (c : Dev nD) : (dat2 V c).arrAt 2 cfg2.N = product (V c main_v87) (V c main_v88) :=
  (dat2 V c).arrAt_eq_of_cover 2 (product (V c main_v87) (V c main_v88)) (fun t _ => flushed_eq V c t) fun i => by
    have hi0 : (i 0).val < 20000 := (i 0).isLt
    have hi1 : (i 1).val < 100 := (i 1).isLt
    have hN : cfg2.N = 25 := N_2
    have ht : (i 0).val / 800 < cfg2.N := by rw [hN]; omega
    obtain ⟨e0, e1, e2, e3, e4, e5⟩ := index_facts ⟨(i 0).val / 800, ht⟩
    refine ⟨⟨(i 0).val / 800, ht⟩, flush2_2 _, ?_⟩
    rw [mem_block]
    intro a
    match a with
    | ⟨0, _⟩ =>
      show win2_2.index ⟨(i 0).val / 800, ht⟩ (0 : Fin 2) * 800 ≤ (i 0).val
        ∧ (i 0).val < win2_2.index ⟨(i 0).val / 800, ht⟩ (0 : Fin 2) * 800 + 800
      rw [e4]; show (i 0).val / 800 * 800 ≤ (i 0).val ∧ (i 0).val < (i 0).val / 800 * 800 + 800; omega
    | ⟨1, _⟩ =>
      show win2_2.index ⟨(i 0).val / 800, ht⟩ (1 : Fin 2) * 100 ≤ (i 1).val
        ∧ (i 1).val < win2_2.index ⟨(i 0).val / 800, ht⟩ (1 : Fin 2) * 100 + 100
      rw [e5]; omega

end Cert.KernelIdeal.TiledProduct2

end
-- ==== Proof.TiledProduct3.lean ====
/-
  The output array of pallas region 3 is the whole matrix product.

  The region multiplies a 20000 × 100 array by a 100 × 2 array in 25 blocks of 800 rows: at grid point `t` it loads rows
  `800·t … 800·t + 799` of the left factor and the whole right factor, multiplies them into the zero array, and writes
  the 800 × 2 result back as rows `800·t … 800·t + 799` of the output. Entry `(p, q)` of block `t` is
  `∑ c, X[800·t + p, c] · W[c, q]`, which is entry `(800·t + p, q)` of the host's product `X · W`; row `r` of the
  output lies in block `r / 800`, so the 25 blocks cover the array, and after the region the array holds `X · W`
  whatever it held before. `V` is the contents of the buffers when the region is entered.
-/
import proofs.«115295_j12043088298517_1_alg».proof.Proof.Gen.KernelIdeal.Frame
import proofs.«115295_j12043088298517_1_alg».proof.Proof.LibRowTiles
import Idealize.ShloMosaic.Lib.Pipeline.Value
import Idealize.ShloMosaic.Lib.ValueIdx

set_option maxRecDepth 16384

noncomputable section

namespace Cert.KernelIdeal.TiledProduct3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The host's product of the whole factors. -/
def product (X : FVec Ideal S20000x100 .bf16) (W : FVec Ideal S100x2 .bf16) : FVec Ideal S20000x2 .f32 :=
  Host.dotGeneral (DotDims.plain 20000 100 2) none X W

/-- The body's stored value at an entry of the block: if row `p` of the loaded left block is row `a` of `X` and the
    loaded right block is `W`, it is entry `(a, q)` of `X · W`. -/
theorem payload_entry (x0 : Vec Ideal S800x100 .bf16) (x1 : Vec Ideal S100x2 .bf16) (X : FVec Ideal S20000x100 .bf16)
    (W : FVec Ideal S100x2 .bf16) (p : Fin 800) (q : Fin 2) (a : Fin 20000)
    (h0 : ∀ k : Fin 100, x0 (ix2 p k) = X (ix2 a k)) (h1 : ∀ k : Fin 100, x1 (ix2 k q) = W (ix2 k q)) :
    k3_pay1 x0 x1 (ix2 p q) = product X W (ix2 a q) := by
  unfold k3_pay1 product
  simp only [shapeCast_self]
  exact RowTiles.tile_entry (M := 20000) (K := 100) (N := 2) (R := 800) none none .single X W x0 x1 p q a h0 h1

/-- The printed index maps over the 25 grid points: the left factor's and the output's block row is the point,
    every other block coordinate is zero. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the product of the arrays the region finds. -/
theorem flushed_eq (c : Dev nD) (t : Fin cfg3.N) :
    (dat3 V c).flushed 2 t
      = ((cfg3.win 2).blk t).view.read (Elt Ideal) (product (V c main_v122) (V c main_v123)) := by
  show (cfg3.win 2).cut (grid3.coords t) ((dat3 V c).after 2 t) = _
  rw [after3_2]
  unfold out3_2
  rw [View.canon_unit_zero zero_offsets]
  simp only [View.ld_unit_zero (S := S800x100) zero_offsets, View.ld_unit_zero (S := S100x2) zero_offsets]
  obtain ⟨e0, e1, e2, e3, e4, e5⟩ := index_facts t
  have hN : cfg3.N = 25 := N_3
  funext j
  obtain ⟨p, q, rfl⟩ : ∃ (p : Fin 800) (q : Fin 2), j = ix2 p q := ⟨j 0, j 1, eq_ix2 j⟩
  have hrow : t.val * 800 + p.val < 20000 := by have h1 := t.isLt; have h2 := p.isLt; omega
  show k3_pay1 (iblk3 V c 0 t) (iblk3 V c 1 t) (ix2 p q)
    = product (V c main_v122) (V c main_v123) (((cfg3.win 2).blk t).view.emb (ix2 p q))
  have hemb : ((cfg3.win 2).blk t).view.emb (ix2 p q) = ix2 (⟨t.val * 800 + p.val, hrow⟩ : Fin 20000) q := by
    funext a; apply Fin.ext
    match a with
    | ⟨0, _⟩ => show win3_2.index t (0 : Fin 2) * 800 + 1 * p.val = t.val * 800 + p.val; omega
    | ⟨1, _⟩ => show win3_2.index t (1 : Fin 2) * 2 + 1 * q.val = q.val; omega
  rw [hemb]
  refine payload_entry (iblk3 V c 0 t) (iblk3 V c 1 t) (V c main_v122) (V c main_v123) p q ⟨t.val * 800 + p.val, hrow⟩ (fun k => ?_) (fun k => ?_)
  · show V c main_v122 (((cfg3.win 0).blk t).view.emb (ix2 p k)) = V c main_v122 (ix2 (⟨t.val * 800 + p.val, hrow⟩ : Fin 20000) k)
    refine congrArg _ ?_
    funext a; apply Fin.ext
    match a with
    | ⟨0, _⟩ => show win3_0.index t (0 : Fin 2) * 800 + 1 * p.val = t.val * 800 + p.val; omega
    | ⟨1, _⟩ => show win3_0.index t (1 : Fin 2) * 100 + 1 * k.val = k.val; omega
  · show V c main_v123 (((cfg3.win 1).blk t).view.emb (ix2 k q)) = V c main_v123 (ix2 k q)
    refine congrArg _ ?_
    funext a; apply Fin.ext
    match a with
    | ⟨0, _⟩ => show win3_1.index t (0 : Fin 2) * 100 + 1 * k.val = k.val; omega
    | ⟨1, _⟩ => show win3_1.index t (1 : Fin 2) * 2 + 1 * q.val = q.val; omega

/-- An index of the output array is in point `t`'s block iff each coordinate is in the block's range on its axis. -/
theorem mem_block (t : Fin cfg3.N) (i : S20000x2.Idx) :
    i ∈ ((cfg3.win 2).blk t).view.set ↔ ∀ a : Fin 2, win3_2.index t a * S800x2.size a ≤ (i a).val
      ∧ (i a).val < win3_2.index t a * S800x2.size a + S800x2.size a := by
  show i ∈ ((View.whole main_v124).slice (win3_2.rect t)).set ↔ _
  rw [View.set_slice_whole, Rect.mem_set_unit]
  exact Iff.rfl

/-- After the region the output array is the product of the arrays the region found: row `r` is written by point
    `r / 800`. -/
theorem final (c : Dev nD) : (dat3 V c).arrAt 2 cfg3.N = product (V c main_v122) (V c main_v123) :=
  (dat3 V c).arrAt_eq_of_cover 2 (product (V c main_v122) (V c main_v123)) (fun t _ => flushed_eq V c t) fun i => by
    have hi0 : (i 0).val < 20000 := (i 0).isLt
    have hi1 : (i 1).val < 2 := (i 1).isLt
    have hN : cfg3.N = 25 := N_3
    have ht : (i 0).val / 800 < cfg3.N := by rw [hN]; omega
    obtain ⟨e0, e1, e2, e3, e4, e5⟩ := index_facts ⟨(i 0).val / 800, ht⟩
    refine ⟨⟨(i 0).val / 800, ht⟩, flush3_2 _, ?_⟩
    rw [mem_block]
    intro a
    match a with
    | ⟨0, _⟩ =>
      show win3_2.index ⟨(i 0).val / 800, ht⟩ (0 : Fin 2) * 800 ≤ (i 0).val
        ∧ (i 0).val < win3_2.index ⟨(i 0).val / 800, ht⟩ (0 : Fin 2) * 800 + 800
      rw [e4]; show (i 0).val / 800 * 800 ≤ (i 0).val ∧ (i 0).val < (i 0).val / 800 * 800 + 800; omega
    | ⟨1, _⟩ =>
      show win3_2.index ⟨(i 0).val / 800, ht⟩ (1 : Fin 2) * 2 ≤ (i 1).val
        ∧ (i 1).val < win3_2.index ⟨(i 0).val / 800, ht⟩ (1 : Fin 2) * 2 + 2
      rw [e5]; omega

end Cert.KernelIdeal.TiledProduct3

end
-- ==== Proof.GraphLayers.lean ====
/-
  The host side of a four-layer graph convolution network, as functions of arrays.

  From the 2 × 100000 array of edges: the source and the target of every edge, followed by one self loop per node
  (`sources`, `targets`: 120000 entries each); the degree of a node is the number of edges that end in it, and
  `invSqrtDegree` is its inverse square root. An edge from `s` to `d` weighs `invSqrtDegree s · invSqrtDegree d`
  (`edgeWeight`). A layer, after its linear map has produced `h`, sends along every edge the source's row of `h`
  times the edge's weight, adds what each node receives, and adds the bias (`conv2000`, `conv500`, `conv100`,
  `conv2`, by the width of `h`); between layers the positive part is taken (`relu2000`, `relu500`, `relu100`). A row
  number below zero counts from the end (`wrapRow`). The linear maps themselves are not here: both programs apply
  these functions to the products they compute, each in its own way.
-/
import proofs.«115295_j12043088298517_1_alg».proof.Proof.Gen.ReferenceIdeal

noncomputable section

namespace Cert.GraphLayers

open Cert.ReferenceIdeal Cert.ReferenceIdeal.Gen Idealize.ShloMosaic

variable {F : FTy → Type} [FloatOps F]

/-- A row number below zero counts from the end: `s + 20000` where `s < 0`, else `s`, entry by entry. -/
def wrapRow (s : (⟨S120000, .i32⟩ : BufTy).Contents (Elt F)) : (⟨S120000, .i32⟩ : BufTy).Contents (Elt F) :=
  select (cmpi .slt s (broadcastInDim S120000 ![] bcast_S_S120000 (constantI S_ 32 0#32)))
    (addi s (broadcastInDim S120000 ![] bcast_S_S120000 (constantI S_ 32 20000#32))) s

/-- Row 0 of the edge array, then the nodes' own numbers: where every edge and every self loop starts. -/
def sources (e : (⟨S2x100000, .i32⟩ : BufTy).Contents (Elt F)) : (⟨S120000, .i32⟩ : BufTy).Contents (Elt F) :=
  concatenate S120000 0
    [⟨S100000, (shapeCast _ (extractStridedSlice S1x100000 ![0, 0] e slices_S2x100000_S1x100000_0_0) shapeCasts_S1x100000_S100000)⟩,
     ⟨S20000, (iotaInDim S20000 32 0)⟩] concatenates_S100000_S20000_S120000_d0

/-- Row 1 of the edge array, then the nodes' own numbers: where every edge and every self loop ends. -/
def targets (e : (⟨S2x100000, .i32⟩ : BufTy).Contents (Elt F)) : (⟨S120000, .i32⟩ : BufTy).Contents (Elt F) :=
  concatenate S120000 0
    [⟨S100000, (shapeCast _ (extractStridedSlice S1x100000 ![1, 0] e slices_S2x100000_S1x100000_1_0) shapeCasts_S1x100000_S100000)⟩,
     ⟨S20000, (iotaInDim S20000 32 0)⟩] concatenates_S100000_S20000_S120000_d0

/-- The inverse square root of every node's degree: one is added at the target of every edge, from zero. -/
def invSqrtDegree (d : (⟨S120000, .i32⟩ : BufTy).Contents (Elt F)) : (⟨S20000, .f32⟩ : BufTy).Contents (Elt F) :=
  Host.rsqrt (Host.scatterAdd scatter_S20000_S120000x1_S120000_n_0_0_1
    (broadcastInDim S20000 ![] bcast_S_S20000 (constant (F := F) S_ .f32 0x00000000#32))
    (broadcastInDim S120000x1 ![0] bcast_S120000_S120000x1_0 (wrapRow d))
    (broadcastInDim S120000 ![] bcast_S_S120000 (constant (F := F) S_ .f32 0x3F800000#32)))

/-- An edge's weight: the product of `w` at its source and `w` at its target. -/
def edgeWeight (s d : (⟨S120000, .i32⟩ : BufTy).Contents (Elt F)) (w : (⟨S20000, .f32⟩ : BufTy).Contents (Elt F)) :
    (⟨S120000, .f32⟩ : BufTy).Contents (Elt F) :=
  mulf (Host.gather gather_S20000_S120000x1_S120000_n_0_n_n_0_1_1 w (broadcastInDim S120000x1 ![0] bcast_S120000_S120000x1_0 (wrapRow s)))
       (Host.gather gather_S20000_S120000x1_S120000_n_0_n_n_0_1_1 w (broadcastInDim S120000x1 ![0] bcast_S120000_S120000x1_0 (wrapRow d)))

/-- One graph convolution after its linear map, 2000 features wide: every edge `e` sends row `src e` of `h`, scaled by the
    edge's weight, to row `dst e`; the rows received are added up from zero, and the bias `b` is added to every row. -/
def conv2000 (h : (⟨S20000x2000, .f32⟩ : BufTy).Contents (Elt F)) (s d : (⟨S120000, .i32⟩ : BufTy).Contents (Elt F))
    (w : (⟨S20000, .f32⟩ : BufTy).Contents (Elt F)) (b : (⟨S2000, .f32⟩ : BufTy).Contents (Elt F)) :
    (⟨S20000x2000, .f32⟩ : BufTy).Contents (Elt F) :=
  addf
    (Host.scatterAdd scatter_S20000x2000_S120000x1_S120000x2000_1_0_0_1
      (broadcastInDim S20000x2000 ![] bcast_S_S20000x2000 (constant (F := F) S_ .f32 0x00000000#32))
      (broadcastInDim S120000x1 ![0] bcast_S120000_S120000x1_0 d)
      (mulf (Host.gather gather_S20000x2000_S120000x1_S120000x2000_1_0_n_n_0_1_12000 h
              (broadcastInDim S120000x1 ![0] bcast_S120000_S120000x1_0 (wrapRow s)))
            (broadcastInDim S120000x2000 ![0, 1] bcast_S120000x1_S120000x2000_0_1
              (broadcastInDim S120000x1 ![0] bcast_S120000_S120000x1_0 (edgeWeight s d w)))))
    (broadcastInDim S20000x2000 ![0, 1] bcast_S1x2000_S20000x2000_0_1 (broadcastInDim S1x2000 ![1] bcast_S2000_S1x2000_1 b))

/-- One graph convolution after its linear map, 500 features wide: every edge `e` sends row `src e` of `h`, scaled by the
    edge's weight, to row `dst e`; the rows received are added up from zero, and the bias `b` is added to every row. -/
def conv500 (h : (⟨S20000x500, .f32⟩ : BufTy).Contents (Elt F)) (s d : (⟨S120000, .i32⟩ : BufTy).Contents (Elt F))
    (w : (⟨S20000, .f32⟩ : BufTy).Contents (Elt F)) (b : (⟨S500, .f32⟩ : BufTy).Contents (Elt F)) :
    (⟨S20000x500, .f32⟩ : BufTy).Contents (Elt F) :=
  addf
    (Host.scatterAdd scatter_S20000x500_S120000x1_S120000x500_1_0_0_1
      (broadcastInDim S20000x500 ![] bcast_S_S20000x500 (constant (F := F) S_ .f32 0x00000000#32))
      (broadcastInDim S120000x1 ![0] bcast_S120000_S120000x1_0 d)
      (mulf (Host.gather gather_S20000x500_S120000x1_S120000x500_1_0_n_n_0_1_1500 h
              (broadcastInDim S120000x1 ![0] bcast_S120000_S120000x1_0 (wrapRow s)))
            (broadcastInDim S120000x500 ![0, 1] bcast_S120000x1_S120000x500_0_1
              (broadcastInDim S120000x1 ![0] bcast_S120000_S120000x1_0 (edgeWeight s d w)))))
    (broadcastInDim S20000x500 ![0, 1] bcast_S1x500_S20000x500_0_1 (broadcastInDim S1x500 ![1] bcast_S500_S1x500_1 b))

/-- One graph convolution after its linear map, 100 features wide: every edge `e` sends row `src e` of `h`, scaled by the
    edge's weight, to row `dst e`; the rows received are added up from zero, and the bias `b` is added to every row. -/
def conv100 (h : (⟨S20000x100, .f32⟩ : BufTy).Contents (Elt F)) (s d : (⟨S120000, .i32⟩ : BufTy).Contents (Elt F))
    (w : (⟨S20000, .f32⟩ : BufTy).Contents (Elt F)) (b : (⟨S100, .f32⟩ : BufTy).Contents (Elt F)) :
    (⟨S20000x100, .f32⟩ : BufTy).Contents (Elt F) :=
  addf
    (Host.scatterAdd scatter_S20000x100_S120000x1_S120000x100_1_0_0_1
      (broadcastInDim S20000x100 ![] bcast_S_S20000x100 (constant (F := F) S_ .f32 0x00000000#32))
      (broadcastInDim S120000x1 ![0] bcast_S120000_S120000x1_0 d)
      (mulf (Host.gather gather_S20000x100_S120000x1_S120000x100_1_0_n_n_0_1_1100 h
              (broadcastInDim S120000x1 ![0] bcast_S120000_S120000x1_0 (wrapRow s)))
            (broadcastInDim S120000x100 ![0, 1] bcast_S120000x1_S120000x100_0_1
              (broadcastInDim S120000x1 ![0] bcast_S120000_S120000x1_0 (edgeWeight s d w)))))
    (broadcastInDim S20000x100 ![0, 1] bcast_S1x100_S20000x100_0_1 (broadcastInDim S1x100 ![1] bcast_S100_S1x100_1 b))

/-- One graph convolution after its linear map, 2 features wide: every edge `e` sends row `src e` of `h`, scaled by the
    edge's weight, to row `dst e`; the rows received are added up from zero, and the bias `b` is added to every row. -/
def conv2 (h : (⟨S20000x2, .f32⟩ : BufTy).Contents (Elt F)) (s d : (⟨S120000, .i32⟩ : BufTy).Contents (Elt F))
    (w : (⟨S20000, .f32⟩ : BufTy).Contents (Elt F)) (b : (⟨S2, .f32⟩ : BufTy).Contents (Elt F)) :
    (⟨S20000x2, .f32⟩ : BufTy).Contents (Elt F) :=
  addf
    (Host.scatterAdd scatter_S20000x2_S120000x1_S120000x2_1_0_0_1
      (broadcastInDim S20000x2 ![] bcast_S_S20000x2 (constant (F := F) S_ .f32 0x00000000#32))
      (broadcastInDim S120000x1 ![0] bcast_S120000_S120000x1_0 d)
      (mulf (Host.gather gather_S20000x2_S120000x1_S120000x2_1_0_n_n_0_1_12 h
              (broadcastInDim S120000x1 ![0] bcast_S120000_S120000x1_0 (wrapRow s)))
            (broadcastInDim S120000x2 ![0, 1] bcast_S120000x1_S120000x2_0_1
              (broadcastInDim S120000x1 ![0] bcast_S120000_S120000x1_0 (edgeWeight s d w)))))
    (broadcastInDim S20000x2 ![0, 1] bcast_S1x2_S20000x2_0_1 (broadcastInDim S1x2 ![1] bcast_S2_S1x2_1 b))

/-- The positive part, entry by entry, of a 2000-wide array. -/
def relu2000 (y : (⟨S20000x2000, .f32⟩ : BufTy).Contents (Elt F)) : (⟨S20000x2000, .f32⟩ : BufTy).Contents (Elt F) :=
  maximumf y (broadcastInDim S20000x2000 ![] bcast_S_S20000x2000 (constant (F := F) S_ .f32 0x00000000#32))

/-- The positive part, entry by entry, of a 500-wide array. -/
def relu500 (y : (⟨S20000x500, .f32⟩ : BufTy).Contents (Elt F)) : (⟨S20000x500, .f32⟩ : BufTy).Contents (Elt F) :=
  maximumf y (broadcastInDim S20000x500 ![] bcast_S_S20000x500 (constant (F := F) S_ .f32 0x00000000#32))

/-- The positive part, entry by entry, of a 100-wide array. -/
def relu100 (y : (⟨S20000x100, .f32⟩ : BufTy).Contents (Elt F)) : (⟨S20000x100, .f32⟩ : BufTy).Contents (Elt F) :=
  maximumf y (broadcastInDim S20000x100 ![] bcast_S_S20000x100 (constant (F := F) S_ .f32 0x00000000#32))

end Cert.GraphLayers

end
-- ==== Proof.Carried.lean ====
/-
  What the later host stretches of the kernel program read again.

  The edge lists and the inverse square roots of the degrees are computed once, before the first pallas region, and
  read again by every later layer; the biases and the later weight matrices are argument arrays read where their
  layer begins. `Carried e a3 … a9 V` says that the buffer contents `V` still hold all of them: the three derived
  arrays as the functions of the edge array `e` that define them, and the seven argument arrays as `a3 … a9`.
-/
import proofs.«115295_j12043088298517_1_alg».proof.Proof.Gen.KernelIdeal.Launch
import proofs.«115295_j12043088298517_1_alg».proof.Proof.GraphLayers
import Idealize.ShloMosaic.Lib.StableHlo.Run

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F]

/-- The contents `V` hold the edge lists and the inverse square roots of the degrees, as functions of the edge array
    `e`, and the argument arrays 3 to 9. -/
structure Carried (e : (⟨S2x100000, .i32⟩ : BufTy).Contents (Elt F)) (a3 : (⟨S2000, .f32⟩ : BufTy).Contents (Elt F)) (a4 : (⟨S2000x500, .f32⟩ : BufTy).Contents (Elt F)) (a5 : (⟨S500, .f32⟩ : BufTy).Contents (Elt F)) (a6 : (⟨S500x100, .f32⟩ : BufTy).Contents (Elt F)) (a7 : (⟨S100, .f32⟩ : BufTy).Contents (Elt F)) (a8 : (⟨S100x2, .f32⟩ : BufTy).Contents (Elt F)) (a9 : (⟨S2, .f32⟩ : BufTy).Contents (Elt F)) (V : Valuation τ sig (Elt F)) : Prop where
  src : V (Proc.devRef .tc main_v3) = GraphLayers.sources e
  dst : V (Proc.devRef .tc main_v6) = GraphLayers.targets e
  wgt : V (Proc.devRef .tc main_v16) = GraphLayers.invSqrtDegree (GraphLayers.targets e)
  arg3 : V (Proc.devRef .tc main_arg3) = a3
  arg4 : V (Proc.devRef .tc main_arg4) = a4
  arg5 : V (Proc.devRef .tc main_arg5) = a5
  arg6 : V (Proc.devRef .tc main_arg6) = a6
  arg7 : V (Proc.devRef .tc main_arg7) = a7
  arg8 : V (Proc.devRef .tc main_arg8) = a8
  arg9 : V (Proc.devRef .tc main_arg9) = a9

end Cert.KernelIdeal.HostStages

end
-- ==== Proof.HostStage0.lean ====
/-
  The kernel program's host operations before the first pallas region.

  From contents `V` they leave: the sources and the targets of the edges with the self loops, the inverse square
  roots of the degrees, and the node features and the first weight matrix narrowed to the matrix unit's input
  format. They write none of the argument arrays.
-/
import proofs.«115295_j12043088298517_1_alg».proof.Proof.Carried

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

/-- The sources of the edges and self loops. -/
theorem start_sources : after hostOps0 V (Proc.devRef .tc main_v3) = GraphLayers.sources (V (Proc.devRef .tc main_arg1)) := by
  dsimp only [hostOps0]
  after_results <;> rfl

/-- The targets of the edges and self loops. -/
theorem start_targets : after hostOps0 V (Proc.devRef .tc main_v6) = GraphLayers.targets (V (Proc.devRef .tc main_arg1)) := by
  dsimp only [hostOps0]
  after_results <;> rfl

/-- The inverse square roots of the degrees. -/
theorem start_weights : after hostOps0 V (Proc.devRef .tc main_v16)
    = GraphLayers.invSqrtDegree (GraphLayers.targets (V (Proc.devRef .tc main_arg1))) := by
  dsimp only [hostOps0]
  after_results <;> rfl

/-- The node features, narrowed. -/
theorem start_features : after hostOps0 V (Proc.devRef .tc main_v17)
    = truncf .bf16 (V (Proc.devRef .tc main_arg0)) bitsLt_bf16_f32 := by
  dsimp only [hostOps0]
  after_results <;> rfl

/-- The first weight matrix, narrowed. -/
theorem start_matrix : after hostOps0 V (Proc.devRef .tc main_v18)
    = truncf .bf16 (V (Proc.devRef .tc main_arg2)) bitsLt_bf16_f32 := by
  dsimp only [hostOps0]
  after_results <;> rfl

/-- After them the contents hold everything the later layers read again. -/
theorem carried_start : Carried (V (Proc.devRef .tc main_arg1)) (V (Proc.devRef .tc main_arg3)) (V (Proc.devRef .tc main_arg4))
    (V (Proc.devRef .tc main_arg5)) (V (Proc.devRef .tc main_arg6)) (V (Proc.devRef .tc main_arg7)) (V (Proc.devRef .tc main_arg8))
    (V (Proc.devRef .tc main_arg9)) (after hostOps0 V) where
  src := start_sources V
  dst := start_targets V
  wgt := start_weights V
  arg3 := by dsimp only [hostOps0]; after_results <;> rfl
  arg4 := by dsimp only [hostOps0]; after_results <;> rfl
  arg5 := by dsimp only [hostOps0]; after_results <;> rfl
  arg6 := by dsimp only [hostOps0]; after_results <;> rfl
  arg7 := by dsimp only [hostOps0]; after_results <;> rfl
  arg8 := by dsimp only [hostOps0]; after_results <;> rfl
  arg9 := by dsimp only [hostOps0]; after_results <;> rfl

end Cert.KernelIdeal.HostStages

end
-- ==== Proof.HostStage1.lean ====
/-
  The kernel program's host operations between pallas regions 0 and 1.

  They read the product the region before them left (2000 features wide), the edge lists, the inverse square roots
  of the degrees and the layer's bias, and leave the layer's output — the convolution, then the positive part —
  and the next weight matrix, both narrowed to the matrix unit's input format. They write nothing that a later
  layer reads again.
-/
import proofs.«115295_j12043088298517_1_alg».proof.Proof.Carried

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

set_option maxHeartbeats 4000000 in
/-- The layer's output, narrowed: what the next region multiplies. -/
theorem features_1 : after hostOps1_2 (after hostOps1_1 (after hostOps1 V)) (Proc.devRef .tc main_v52)
    = truncf .bf16 (GraphLayers.relu2000 (GraphLayers.conv2000 (V (Proc.devRef .tc main_v19)) (V (Proc.devRef .tc main_v3))
        (V (Proc.devRef .tc main_v6)) (V (Proc.devRef .tc main_v16)) (V (Proc.devRef .tc main_arg3)))) bitsLt_bf16_f32 := by
  dsimp only [hostOps1, hostOps1_1, hostOps1_2]
  after_results_simp <;> rfl

set_option maxHeartbeats 4000000 in
/-- The next weight matrix, narrowed. -/
theorem matrix_1 : after hostOps1_2 (after hostOps1_1 (after hostOps1 V)) (Proc.devRef .tc main_v53)
    = truncf .bf16 (V (Proc.devRef .tc main_arg4)) bitsLt_bf16_f32 := by
  dsimp only [hostOps1, hostOps1_1, hostOps1_2]
  after_results_simp <;> rfl

set_option maxHeartbeats 40000000 in
/-- What the later layers read again is still there. -/
theorem carried_1 (e : (⟨S2x100000, .i32⟩ : BufTy).Contents (Elt F)) (a3 : (⟨S2000, .f32⟩ : BufTy).Contents (Elt F)) (a4 : (⟨S2000x500, .f32⟩ : BufTy).Contents (Elt F)) (a5 : (⟨S500, .f32⟩ : BufTy).Contents (Elt F)) (a6 : (⟨S500x100, .f32⟩ : BufTy).Contents (Elt F)) (a7 : (⟨S100, .f32⟩ : BufTy).Contents (Elt F)) (a8 : (⟨S100x2, .f32⟩ : BufTy).Contents (Elt F)) (a9 : (⟨S2, .f32⟩ : BufTy).Contents (Elt F)) (h : Carried e a3 a4 a5 a6 a7 a8 a9 V) :
    Carried e a3 a4 a5 a6 a7 a8 a9 (after hostOps1_2 (after hostOps1_1 (after hostOps1 V))) where
  src := (by dsimp only [hostOps1, hostOps1_1, hostOps1_2]; after_results_simp <;> rfl : after hostOps1_2 (after hostOps1_1 (after hostOps1 V)) (Proc.devRef .tc main_v3) = V (Proc.devRef .tc main_v3)).trans h.src
  dst := (by dsimp only [hostOps1, hostOps1_1, hostOps1_2]; after_results_simp <;> rfl : after hostOps1_2 (after hostOps1_1 (after hostOps1 V)) (Proc.devRef .tc main_v6) = V (Proc.devRef .tc main_v6)).trans h.dst
  wgt := (by dsimp only [hostOps1, hostOps1_1, hostOps1_2]; after_results_simp <;> rfl : after hostOps1_2 (after hostOps1_1 (after hostOps1 V)) (Proc.devRef .tc main_v16) = V (Proc.devRef .tc main_v16)).trans h.wgt
  arg3 := (by dsimp only [hostOps1, hostOps1_1, hostOps1_2]; after_results_simp <;> rfl : after hostOps1_2 (after hostOps1_1 (after hostOps1 V)) (Proc.devRef .tc main_arg3) = V (Proc.devRef .tc main_arg3)).trans h.arg3
  arg4 := (by dsimp only [hostOps1, hostOps1_1, hostOps1_2]; after_results_simp <;> rfl : after hostOps1_2 (after hostOps1_1 (after hostOps1 V)) (Proc.devRef .tc main_arg4) = V (Proc.devRef .tc main_arg4)).trans h.arg4
  arg5 := (by dsimp only [hostOps1, hostOps1_1, hostOps1_2]; after_results_simp <;> rfl : after hostOps1_2 (after hostOps1_1 (after hostOps1 V)) (Proc.devRef .tc main_arg5) = V (Proc.devRef .tc main_arg5)).trans h.arg5
  arg6 := (by dsimp only [hostOps1, hostOps1_1, hostOps1_2]; after_results_simp <;> rfl : after hostOps1_2 (after hostOps1_1 (after hostOps1 V)) (Proc.devRef .tc main_arg6) = V (Proc.devRef .tc main_arg6)).trans h.arg6
  arg7 := (by dsimp only [hostOps1, hostOps1_1, hostOps1_2]; after_results_simp <;> rfl : after hostOps1_2 (after hostOps1_1 (after hostOps1 V)) (Proc.devRef .tc main_arg7) = V (Proc.devRef .tc main_arg7)).trans h.arg7
  arg8 := (by dsimp only [hostOps1, hostOps1_1, hostOps1_2]; after_results_simp <;> rfl : after hostOps1_2 (after hostOps1_1 (after hostOps1 V)) (Proc.devRef .tc main_arg8) = V (Proc.devRef .tc main_arg8)).trans h.arg8
  arg9 := (by dsimp only [hostOps1, hostOps1_1, hostOps1_2]; after_results_simp <;> rfl : after hostOps1_2 (after hostOps1_1 (after hostOps1 V)) (Proc.devRef .tc main_arg9) = V (Proc.devRef .tc main_arg9)).trans h.arg9

end Cert.KernelIdeal.HostStages

end
-- ==== Proof.HostStage2.lean ====
/-
  The kernel program's host operations between pallas regions 1 and 2.

  They read the product the region before them left (500 features wide), the edge lists, the inverse square roots
  of the degrees and the layer's bias, and leave the layer's output — the convolution, then the positive part —
  and the next weight matrix, both narrowed to the matrix unit's input format. They write nothing that a later
  layer reads again.
-/
import proofs.«115295_j12043088298517_1_alg».proof.Proof.Carried

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

set_option maxHeartbeats 4000000 in
/-- The layer's output, narrowed: what the next region multiplies. -/
theorem features_2 : after hostOps2_2 (after hostOps2_1 (after hostOps2 V)) (Proc.devRef .tc main_v87)
    = truncf .bf16 (GraphLayers.relu500 (GraphLayers.conv500 (V (Proc.devRef .tc main_v54)) (V (Proc.devRef .tc main_v3))
        (V (Proc.devRef .tc main_v6)) (V (Proc.devRef .tc main_v16)) (V (Proc.devRef .tc main_arg5)))) bitsLt_bf16_f32 := by
  dsimp only [hostOps2, hostOps2_1, hostOps2_2]
  after_results_simp <;> rfl

set_option maxHeartbeats 4000000 in
/-- The next weight matrix, narrowed. -/
theorem matrix_2 : after hostOps2_2 (after hostOps2_1 (after hostOps2 V)) (Proc.devRef .tc main_v88)
    = truncf .bf16 (V (Proc.devRef .tc main_arg6)) bitsLt_bf16_f32 := by
  dsimp only [hostOps2, hostOps2_1, hostOps2_2]
  after_results_simp <;> rfl

set_option maxHeartbeats 40000000 in
/-- What the later layers read again is still there. -/
theorem carried_2 (e : (⟨S2x100000, .i32⟩ : BufTy).Contents (Elt F)) (a3 : (⟨S2000, .f32⟩ : BufTy).Contents (Elt F)) (a4 : (⟨S2000x500, .f32⟩ : BufTy).Contents (Elt F)) (a5 : (⟨S500, .f32⟩ : BufTy).Contents (Elt F)) (a6 : (⟨S500x100, .f32⟩ : BufTy).Contents (Elt F)) (a7 : (⟨S100, .f32⟩ : BufTy).Contents (Elt F)) (a8 : (⟨S100x2, .f32⟩ : BufTy).Contents (Elt F)) (a9 : (⟨S2, .f32⟩ : BufTy).Contents (Elt F)) (h : Carried e a3 a4 a5 a6 a7 a8 a9 V) :
    Carried e a3 a4 a5 a6 a7 a8 a9 (after hostOps2_2 (after hostOps2_1 (after hostOps2 V))) where
  src := (by dsimp only [hostOps2, hostOps2_1, hostOps2_2]; after_results_simp <;> rfl : after hostOps2_2 (after hostOps2_1 (after hostOps2 V)) (Proc.devRef .tc main_v3) = V (Proc.devRef .tc main_v3)).trans h.src
  dst := (by dsimp only [hostOps2, hostOps2_1, hostOps2_2]; after_results_simp <;> rfl : after hostOps2_2 (after hostOps2_1 (after hostOps2 V)) (Proc.devRef .tc main_v6) = V (Proc.devRef .tc main_v6)).trans h.dst
  wgt := (by dsimp only [hostOps2, hostOps2_1, hostOps2_2]; after_results_simp <;> rfl : after hostOps2_2 (after hostOps2_1 (after hostOps2 V)) (Proc.devRef .tc main_v16) = V (Proc.devRef .tc main_v16)).trans h.wgt
  arg3 := (by dsimp only [hostOps2, hostOps2_1, hostOps2_2]; after_results_simp <;> rfl : after hostOps2_2 (after hostOps2_1 (after hostOps2 V)) (Proc.devRef .tc main_arg3) = V (Proc.devRef .tc main_arg3)).trans h.arg3
  arg4 := (by dsimp only [hostOps2, hostOps2_1, hostOps2_2]; after_results_simp <;> rfl : after hostOps2_2 (after hostOps2_1 (after hostOps2 V)) (Proc.devRef .tc main_arg4) = V (Proc.devRef .tc main_arg4)).trans h.arg4
  arg5 := (by dsimp only [hostOps2, hostOps2_1, hostOps2_2]; after_results_simp <;> rfl : after hostOps2_2 (after hostOps2_1 (after hostOps2 V)) (Proc.devRef .tc main_arg5) = V (Proc.devRef .tc main_arg5)).trans h.arg5
  arg6 := (by dsimp only [hostOps2, hostOps2_1, hostOps2_2]; after_results_simp <;> rfl : after hostOps2_2 (after hostOps2_1 (after hostOps2 V)) (Proc.devRef .tc main_arg6) = V (Proc.devRef .tc main_arg6)).trans h.arg6
  arg7 := (by dsimp only [hostOps2, hostOps2_1, hostOps2_2]; after_results_simp <;> rfl : after hostOps2_2 (after hostOps2_1 (after hostOps2 V)) (Proc.devRef .tc main_arg7) = V (Proc.devRef .tc main_arg7)).trans h.arg7
  arg8 := (by dsimp only [hostOps2, hostOps2_1, hostOps2_2]; after_results_simp <;> rfl : after hostOps2_2 (after hostOps2_1 (after hostOps2 V)) (Proc.devRef .tc main_arg8) = V (Proc.devRef .tc main_arg8)).trans h.arg8
  arg9 := (by dsimp only [hostOps2, hostOps2_1, hostOps2_2]; after_results_simp <;> rfl : after hostOps2_2 (after hostOps2_1 (after hostOps2 V)) (Proc.devRef .tc main_arg9) = V (Proc.devRef .tc main_arg9)).trans h.arg9

end Cert.KernelIdeal.HostStages

end
-- ==== Proof.HostStage3.lean ====
/-
  The kernel program's host operations between pallas regions 2 and 3.

  They read the product the region before them left (100 features wide), the edge lists, the inverse square roots
  of the degrees and the layer's bias, and leave the layer's output — the convolution, then the positive part —
  and the next weight matrix, both narrowed to the matrix unit's input format. They write nothing that a later
  layer reads again.
-/
import proofs.«115295_j12043088298517_1_alg».proof.Proof.Carried

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

set_option maxHeartbeats 4000000 in
/-- The layer's output, narrowed: what the next region multiplies. -/
theorem features_3 : after hostOps3_2 (after hostOps3_1 (after hostOps3 V)) (Proc.devRef .tc main_v122)
    = truncf .bf16 (GraphLayers.relu100 (GraphLayers.conv100 (V (Proc.devRef .tc main_v89)) (V (Proc.devRef .tc main_v3))
        (V (Proc.devRef .tc main_v6)) (V (Proc.devRef .tc main_v16)) (V (Proc.devRef .tc main_arg7)))) bitsLt_bf16_f32 := by
  dsimp only [hostOps3, hostOps3_1, hostOps3_2]
  after_results_simp <;> rfl

set_option maxHeartbeats 4000000 in
/-- The next weight matrix, narrowed. -/
theorem matrix_3 : after hostOps3_2 (after hostOps3_1 (after hostOps3 V)) (Proc.devRef .tc main_v123)
    = truncf .bf16 (V (Proc.devRef .tc main_arg8)) bitsLt_bf16_f32 := by
  dsimp only [hostOps3, hostOps3_1, hostOps3_2]
  after_results_simp <;> rfl

set_option maxHeartbeats 40000000 in
/-- What the later layers read again is still there. -/
theorem carried_3 (e : (⟨S2x100000, .i32⟩ : BufTy).Contents (Elt F)) (a3 : (⟨S2000, .f32⟩ : BufTy).Contents (Elt F)) (a4 : (⟨S2000x500, .f32⟩ : BufTy).Contents (Elt F)) (a5 : (⟨S500, .f32⟩ : BufTy).Contents (Elt F)) (a6 : (⟨S500x100, .f32⟩ : BufTy).Contents (Elt F)) (a7 : (⟨S100, .f32⟩ : BufTy).Contents (Elt F)) (a8 : (⟨S100x2, .f32⟩ : BufTy).Contents (Elt F)) (a9 : (⟨S2, .f32⟩ : BufTy).Contents (Elt F)) (h : Carried e a3 a4 a5 a6 a7 a8 a9 V) :
    Carried e a3 a4 a5 a6 a7 a8 a9 (after hostOps3_2 (after hostOps3_1 (after hostOps3 V))) where
  src := (by dsimp only [hostOps3, hostOps3_1, hostOps3_2]; after_results_simp <;> rfl : after hostOps3_2 (after hostOps3_1 (after hostOps3 V)) (Proc.devRef .tc main_v3) = V (Proc.devRef .tc main_v3)).trans h.src
  dst := (by dsimp only [hostOps3, hostOps3_1, hostOps3_2]; after_results_simp <;> rfl : after hostOps3_2 (after hostOps3_1 (after hostOps3 V)) (Proc.devRef .tc main_v6) = V (Proc.devRef .tc main_v6)).trans h.dst
  wgt := (by dsimp only [hostOps3, hostOps3_1, hostOps3_2]; after_results_simp <;> rfl : after hostOps3_2 (after hostOps3_1 (after hostOps3 V)) (Proc.devRef .tc main_v16) = V (Proc.devRef .tc main_v16)).trans h.wgt
  arg3 := (by dsimp only [hostOps3, hostOps3_1, hostOps3_2]; after_results_simp <;> rfl : after hostOps3_2 (after hostOps3_1 (after hostOps3 V)) (Proc.devRef .tc main_arg3) = V (Proc.devRef .tc main_arg3)).trans h.arg3
  arg4 := (by dsimp only [hostOps3, hostOps3_1, hostOps3_2]; after_results_simp <;> rfl : after hostOps3_2 (after hostOps3_1 (after hostOps3 V)) (Proc.devRef .tc main_arg4) = V (Proc.devRef .tc main_arg4)).trans h.arg4
  arg5 := (by dsimp only [hostOps3, hostOps3_1, hostOps3_2]; after_results_simp <;> rfl : after hostOps3_2 (after hostOps3_1 (after hostOps3 V)) (Proc.devRef .tc main_arg5) = V (Proc.devRef .tc main_arg5)).trans h.arg5
  arg6 := (by dsimp only [hostOps3, hostOps3_1, hostOps3_2]; after_results_simp <;> rfl : after hostOps3_2 (after hostOps3_1 (after hostOps3 V)) (Proc.devRef .tc main_arg6) = V (Proc.devRef .tc main_arg6)).trans h.arg6
  arg7 := (by dsimp only [hostOps3, hostOps3_1, hostOps3_2]; after_results_simp <;> rfl : after hostOps3_2 (after hostOps3_1 (after hostOps3 V)) (Proc.devRef .tc main_arg7) = V (Proc.devRef .tc main_arg7)).trans h.arg7
  arg8 := (by dsimp only [hostOps3, hostOps3_1, hostOps3_2]; after_results_simp <;> rfl : after hostOps3_2 (after hostOps3_1 (after hostOps3 V)) (Proc.devRef .tc main_arg8) = V (Proc.devRef .tc main_arg8)).trans h.arg8
  arg9 := (by dsimp only [hostOps3, hostOps3_1, hostOps3_2]; after_results_simp <;> rfl : after hostOps3_2 (after hostOps3_1 (after hostOps3 V)) (Proc.devRef .tc main_arg9) = V (Proc.devRef .tc main_arg9)).trans h.arg9

end Cert.KernelIdeal.HostStages

end
-- ==== Proof.HostStage4.lean ====
/-
  The kernel program's host operations after the last pallas region.

  They read the last product (2 features wide), the edge lists, the inverse square roots of the degrees and the
  last bias, and leave the network's output: the fourth convolution, with no positive part after it.
-/
import proofs.«115295_j12043088298517_1_alg».proof.Proof.Carried

set_option maxRecDepth 16384

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

set_option maxHeartbeats 4000000 in
/-- The result buffer after the last host operations. -/
theorem result_4 : after hostOps4 V (Proc.devRef .tc main_v155)
    = GraphLayers.conv2 (V (Proc.devRef .tc main_v124)) (V (Proc.devRef .tc main_v3)) (V (Proc.devRef .tc main_v6))
        (V (Proc.devRef .tc main_v16)) (V (Proc.devRef .tc main_arg9)) := by
  dsimp only [hostOps4]
  after_results_simp <;> rfl

end Cert.KernelIdeal.HostStages

end
-- ==== Proof.Network.lean ====
/-
  The whole network as one function of the ten argument arrays.

  Four graph convolutions, each after the host's product of the current features by the layer's weight matrix,
  with the positive part taken after the first three: features 3000 → 2000 → 500 → 100 → 2 over 20000 nodes.
-/
import proofs.«115295_j12043088298517_1_alg».proof.Proof.GraphLayers

noncomputable section

namespace Cert.GraphLayers

open Cert.ReferenceIdeal Cert.ReferenceIdeal.Gen Idealize.ShloMosaic

variable {F : FTy → Type} [FloatOps F]

/-- The features after the first layer: `relu (conv (x · W1) + b1)`. -/
def hidden1 (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) : (⟨S20000x2000, .f32⟩ : BufTy).Contents (Elt F) :=
  relu2000 (conv2000 (Host.dotGeneral (DotDims.plain 20000 3000 2000) none x0 x2) (sources x1) (targets x1) (invSqrtDegree (targets x1)) x3)

/-- The features after the second layer. -/
def hidden2 (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) (x4 : (⟨S2000x500, .f32⟩ : BufTy).Contents (Elt F)) (x5 : (⟨S500, .f32⟩ : BufTy).Contents (Elt F)) : (⟨S20000x500, .f32⟩ : BufTy).Contents (Elt F) :=
  relu500 (conv500 (Host.dotGeneral (DotDims.plain 20000 2000 500) none (hidden1 x0 x1 x2 x3) x4) (sources x1) (targets x1) (invSqrtDegree (targets x1)) x5)

/-- The features after the third layer. -/
def hidden3 (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) (x4 : (⟨S2000x500, .f32⟩ : BufTy).Contents (Elt F)) (x5 : (⟨S500, .f32⟩ : BufTy).Contents (Elt F)) (x6 : (⟨S500x100, .f32⟩ : BufTy).Contents (Elt F)) (x7 : (⟨S100, .f32⟩ : BufTy).Contents (Elt F)) : (⟨S20000x100, .f32⟩ : BufTy).Contents (Elt F) :=
  relu100 (conv100 (Host.dotGeneral (DotDims.plain 20000 500 100) none (hidden2 x0 x1 x2 x3 x4 x5) x6) (sources x1) (targets x1) (invSqrtDegree (targets x1)) x7)

/-- The network's output: the fourth convolution, no positive part after it. -/
def network (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) (x4 : (⟨S2000x500, .f32⟩ : BufTy).Contents (Elt F)) (x5 : (⟨S500, .f32⟩ : BufTy).Contents (Elt F)) (x6 : (⟨S500x100, .f32⟩ : BufTy).Contents (Elt F)) (x7 : (⟨S100, .f32⟩ : BufTy).Contents (Elt F)) (x8 : (⟨S100x2, .f32⟩ : BufTy).Contents (Elt F)) (x9 : (⟨S2, .f32⟩ : BufTy).Contents (Elt F)) : (⟨S20000x2, .f32⟩ : BufTy).Contents (Elt F) :=
  conv2 (Host.dotGeneral (DotDims.plain 20000 100 2) none (hidden3 x0 x1 x2 x3 x4 x5 x6 x7) x8) (sources x1) (targets x1) (invSqrtDegree (targets x1)) x9

end Cert.GraphLayers

end
-- ==== Proof.KernelValue.lean ====
/-
  The kernel program's result buffer holds the network of the launch arguments.

  Walk @main's boundaries in order. Before the first region the host operations leave the edge lists, the inverse
  square roots of the degrees, and the narrowed features and first weight matrix. Each region leaves in its output
  array the host's product of the two arrays it was given (its 25 row blocks cover the array), and a product does
  not see that its operands were narrowed; it writes nothing else. The host operations after a region apply that
  layer's convolution, bias and positive part to the product, reading the edge lists and the inverse square roots
  again, unchanged since they were computed. After the fourth region the last convolution gives the result.
-/
import proofs.«115295_j12043088298517_1_alg».proof.Proof.Gen.KernelIdeal.Frame
import proofs.«115295_j12043088298517_1_alg».proof.Proof.TiledProduct0
import proofs.«115295_j12043088298517_1_alg».proof.Proof.TiledProduct1
import proofs.«115295_j12043088298517_1_alg».proof.Proof.TiledProduct2
import proofs.«115295_j12043088298517_1_alg».proof.Proof.TiledProduct3
import proofs.«115295_j12043088298517_1_alg».proof.Proof.HostStage0
import proofs.«115295_j12043088298517_1_alg».proof.Proof.HostStage1
import proofs.«115295_j12043088298517_1_alg».proof.Proof.HostStage2
import proofs.«115295_j12043088298517_1_alg».proof.Proof.HostStage3
import proofs.«115295_j12043088298517_1_alg».proof.Proof.HostStage4
import proofs.«115295_j12043088298517_1_alg».proof.Proof.Network
import proofs.«115295_j12043088298517_1_alg».proof.Proof.LibRowTiles

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Cert.KernelIdeal.HostStages

variable (m : (ℓ : Loc nD τ sig) → Buf (Elt Ideal) ℓ) (ρ : Dev nD → PrngReg) (c : Dev nD)

/-- Argument 0 as launched on core `c`. -/
abbrev a0 : (⟨S20000x3000, .f32⟩ : BufTy).Contents (Elt Ideal) := m ((c : Thread nD τ).loc main_arg0)
/-- Argument 1 as launched on core `c`. -/
abbrev a1 : (⟨S2x100000, .i32⟩ : BufTy).Contents (Elt Ideal) := m ((c : Thread nD τ).loc main_arg1)
/-- Argument 2 as launched on core `c`. -/
abbrev a2 : (⟨S3000x2000, .f32⟩ : BufTy).Contents (Elt Ideal) := m ((c : Thread nD τ).loc main_arg2)
/-- Argument 3 as launched on core `c`. -/
abbrev a3 : (⟨S2000, .f32⟩ : BufTy).Contents (Elt Ideal) := m ((c : Thread nD τ).loc main_arg3)
/-- Argument 4 as launched on core `c`. -/
abbrev a4 : (⟨S2000x500, .f32⟩ : BufTy).Contents (Elt Ideal) := m ((c : Thread nD τ).loc main_arg4)
/-- Argument 5 as launched on core `c`. -/
abbrev a5 : (⟨S500, .f32⟩ : BufTy).Contents (Elt Ideal) := m ((c : Thread nD τ).loc main_arg5)
/-- Argument 6 as launched on core `c`. -/
abbrev a6 : (⟨S500x100, .f32⟩ : BufTy).Contents (Elt Ideal) := m ((c : Thread nD τ).loc main_arg6)
/-- Argument 7 as launched on core `c`. -/
abbrev a7 : (⟨S100, .f32⟩ : BufTy).Contents (Elt Ideal) := m ((c : Thread nD τ).loc main_arg7)
/-- Argument 8 as launched on core `c`. -/
abbrev a8 : (⟨S100x2, .f32⟩ : BufTy).Contents (Elt Ideal) := m ((c : Thread nD τ).loc main_arg8)
/-- Argument 9 as launched on core `c`. -/
abbrev a9 : (⟨S2, .f32⟩ : BufTy).Contents (Elt Ideal) := m ((c : Thread nD τ).loc main_arg9)

/-! ## What every layer reads again, boundary by boundary -/

theorem carried_W1 : Carried (a1 m c) (a3 m c) (a4 m c) (a5 m c) (a6 m c) (a7 m c) (a8 m c) (a9 m c) (W1 m ρ c) := carried_start (W0 m ρ c)

theorem carried_W2 : Carried (a1 m c) (a3 m c) (a4 m c) (a5 m c) (a6 m c) (a7 m c) (a8 m c) (a9 m c) (W2 m ρ c) :=
  have h := carried_W1 m ρ c
  ⟨(W2_of_ne m ρ c main_v3 (by decide)).trans h.src, (W2_of_ne m ρ c main_v6 (by decide)).trans h.dst,
   (W2_of_ne m ρ c main_v16 (by decide)).trans h.wgt,
   (W2_of_ne m ρ c main_arg3 (by decide)).trans h.arg3,
   (W2_of_ne m ρ c main_arg4 (by decide)).trans h.arg4,
   (W2_of_ne m ρ c main_arg5 (by decide)).trans h.arg5,
   (W2_of_ne m ρ c main_arg6 (by decide)).trans h.arg6,
   (W2_of_ne m ρ c main_arg7 (by decide)).trans h.arg7,
   (W2_of_ne m ρ c main_arg8 (by decide)).trans h.arg8,
   (W2_of_ne m ρ c main_arg9 (by decide)).trans h.arg9⟩

theorem carried_W5 : Carried (a1 m c) (a3 m c) (a4 m c) (a5 m c) (a6 m c) (a7 m c) (a8 m c) (a9 m c) (W5 m ρ c) := carried_1 _ _ _ _ _ _ _ _ _ (carried_W2 m ρ c)

theorem carried_W6 : Carried (a1 m c) (a3 m c) (a4 m c) (a5 m c) (a6 m c) (a7 m c) (a8 m c) (a9 m c) (W6 m ρ c) :=
  have h := carried_W5 m ρ c
  ⟨(W6_of_ne m ρ c main_v3 (by decide)).trans h.src, (W6_of_ne m ρ c main_v6 (by decide)).trans h.dst,
   (W6_of_ne m ρ c main_v16 (by decide)).trans h.wgt,
   (W6_of_ne m ρ c main_arg3 (by decide)).trans h.arg3,
   (W6_of_ne m ρ c main_arg4 (by decide)).trans h.arg4,
   (W6_of_ne m ρ c main_arg5 (by decide)).trans h.arg5,
   (W6_of_ne m ρ c main_arg6 (by decide)).trans h.arg6,
   (W6_of_ne m ρ c main_arg7 (by decide)).trans h.arg7,
   (W6_of_ne m ρ c main_arg8 (by decide)).trans h.arg8,
   (W6_of_ne m ρ c main_arg9 (by decide)).trans h.arg9⟩

theorem carried_W9 : Carried (a1 m c) (a3 m c) (a4 m c) (a5 m c) (a6 m c) (a7 m c) (a8 m c) (a9 m c) (W9 m ρ c) := carried_2 _ _ _ _ _ _ _ _ _ (carried_W6 m ρ c)

theorem carried_W10 : Carried (a1 m c) (a3 m c) (a4 m c) (a5 m c) (a6 m c) (a7 m c) (a8 m c) (a9 m c) (W10 m ρ c) :=
  have h := carried_W9 m ρ c
  ⟨(W10_of_ne m ρ c main_v3 (by decide)).trans h.src, (W10_of_ne m ρ c main_v6 (by decide)).trans h.dst,
   (W10_of_ne m ρ c main_v16 (by decide)).trans h.wgt,
   (W10_of_ne m ρ c main_arg3 (by decide)).trans h.arg3,
   (W10_of_ne m ρ c main_arg4 (by decide)).trans h.arg4,
   (W10_of_ne m ρ c main_arg5 (by decide)).trans h.arg5,
   (W10_of_ne m ρ c main_arg6 (by decide)).trans h.arg6,
   (W10_of_ne m ρ c main_arg7 (by decide)).trans h.arg7,
   (W10_of_ne m ρ c main_arg8 (by decide)).trans h.arg8,
   (W10_of_ne m ρ c main_arg9 (by decide)).trans h.arg9⟩

theorem carried_W13 : Carried (a1 m c) (a3 m c) (a4 m c) (a5 m c) (a6 m c) (a7 m c) (a8 m c) (a9 m c) (W13 m ρ c) := carried_3 _ _ _ _ _ _ _ _ _ (carried_W10 m ρ c)

theorem carried_W14 : Carried (a1 m c) (a3 m c) (a4 m c) (a5 m c) (a6 m c) (a7 m c) (a8 m c) (a9 m c) (W14 m ρ c) :=
  have h := carried_W13 m ρ c
  ⟨(W14_of_ne m ρ c main_v3 (by decide)).trans h.src, (W14_of_ne m ρ c main_v6 (by decide)).trans h.dst,
   (W14_of_ne m ρ c main_v16 (by decide)).trans h.wgt,
   (W14_of_ne m ρ c main_arg3 (by decide)).trans h.arg3,
   (W14_of_ne m ρ c main_arg4 (by decide)).trans h.arg4,
   (W14_of_ne m ρ c main_arg5 (by decide)).trans h.arg5,
   (W14_of_ne m ρ c main_arg6 (by decide)).trans h.arg6,
   (W14_of_ne m ρ c main_arg7 (by decide)).trans h.arg7,
   (W14_of_ne m ρ c main_arg8 (by decide)).trans h.arg8,
   (W14_of_ne m ρ c main_arg9 (by decide)).trans h.arg9⟩

/-! ## The four layers -/

/-- After region 0 its output array is the host's product of the layer's input features by its weight matrix. -/
theorem product_0 : (W2 m ρ c (Proc.devRef .tc main_v19) : (⟨S20000x2000, .f32⟩ : BufTy).Contents (Elt Ideal))
    = Host.dotGeneral (F := Ideal) (φ₁ := .f32) (φ₂ := .f32) (DotDims.plain 20000 3000 2000) none (a0 m c) (a2 m c) := by
  refine ((W2_arr m ρ c 2).trans (TiledProduct0.final (V1 m ρ) c)).trans ?_
  show TiledProduct0.product (W1 m ρ c (Proc.devRef .tc main_v17)) (W1 m ρ c (Proc.devRef .tc main_v18)) = _
  rw [show W1 m ρ c (Proc.devRef .tc main_v17) = _ from start_features (W0 m ρ c),
    show W1 m ρ c (Proc.devRef .tc main_v18) = _ from start_matrix (W0 m ρ c)]
  unfold TiledProduct0.product
  exact RowTiles.dotGeneral_truncf none none .single _ _ _

/-- The layer's output, narrowed, as the next region finds it. -/
theorem features_val_1 : (W5 m ρ c (Proc.devRef .tc main_v52) : (⟨S20000x2000, .bf16⟩ : BufTy).Contents (Elt Ideal))
    = truncf (F := Ideal) .bf16 (GraphLayers.hidden1 (a0 m c) (a1 m c) (a2 m c) (a3 m c)) bitsLt_bf16_f32 := by
  have h := carried_W2 m ρ c
  refine (features_1 (W2 m ρ c)).trans ?_
  rw [h.src, h.dst, h.wgt, h.arg3, product_0 m ρ c]
  rfl

/-- The next weight matrix, narrowed, as the next region finds it. -/
theorem matrix_val_1 : (W5 m ρ c (Proc.devRef .tc main_v53) : (⟨S2000x500, .bf16⟩ : BufTy).Contents (Elt Ideal))
    = truncf (F := Ideal) .bf16 (a4 m c) bitsLt_bf16_f32 := by
  refine (matrix_1 (W2 m ρ c)).trans ?_
  rw [(carried_W2 m ρ c).arg4]

/-- After region 1 its output array is the host's product of the layer's input features by its weight matrix. -/
theorem product_1 : (W6 m ρ c (Proc.devRef .tc main_v54) : (⟨S20000x500, .f32⟩ : BufTy).Contents (Elt Ideal))
    = Host.dotGeneral (F := Ideal) (φ₁ := .f32) (φ₂ := .f32) (DotDims.plain 20000 2000 500) none (GraphLayers.hidden1 (a0 m c) (a1 m c) (a2 m c) (a3 m c)) (a4 m c) := by
  refine ((W6_arr m ρ c 2).trans (TiledProduct1.final (V5 m ρ) c)).trans ?_
  show TiledProduct1.product (W5 m ρ c (Proc.devRef .tc main_v52)) (W5 m ρ c (Proc.devRef .tc main_v53)) = _
  rw [features_val_1 m ρ c, matrix_val_1 m ρ c]
  unfold TiledProduct1.product
  exact RowTiles.dotGeneral_truncf none none .single _ _ _

/-- The layer's output, narrowed, as the next region finds it. -/
theorem features_val_2 : (W9 m ρ c (Proc.devRef .tc main_v87) : (⟨S20000x500, .bf16⟩ : BufTy).Contents (Elt Ideal))
    = truncf (F := Ideal) .bf16 (GraphLayers.hidden2 (a0 m c) (a1 m c) (a2 m c) (a3 m c) (a4 m c) (a5 m c)) bitsLt_bf16_f32 := by
  have h := carried_W6 m ρ c
  refine (features_2 (W6 m ρ c)).trans ?_
  rw [h.src, h.dst, h.wgt, h.arg5, product_1 m ρ c]
  rfl

/-- The next weight matrix, narrowed, as the next region finds it. -/
theorem matrix_val_2 : (W9 m ρ c (Proc.devRef .tc main_v88) : (⟨S500x100, .bf16⟩ : BufTy).Contents (Elt Ideal))
    = truncf (F := Ideal) .bf16 (a6 m c) bitsLt_bf16_f32 := by
  refine (matrix_2 (W6 m ρ c)).trans ?_
  rw [(carried_W6 m ρ c).arg6]

/-- After region 2 its output array is the host's product of the layer's input features by its weight matrix. -/
theorem product_2 : (W10 m ρ c (Proc.devRef .tc main_v89) : (⟨S20000x100, .f32⟩ : BufTy).Contents (Elt Ideal))
    = Host.dotGeneral (F := Ideal) (φ₁ := .f32) (φ₂ := .f32) (DotDims.plain 20000 500 100) none (GraphLayers.hidden2 (a0 m c) (a1 m c) (a2 m c) (a3 m c) (a4 m c) (a5 m c)) (a6 m c) := by
  refine ((W10_arr m ρ c 2).trans (TiledProduct2.final (V9 m ρ) c)).trans ?_
  show TiledProduct2.product (W9 m ρ c (Proc.devRef .tc main_v87)) (W9 m ρ c (Proc.devRef .tc main_v88)) = _
  rw [features_val_2 m ρ c, matrix_val_2 m ρ c]
  unfold TiledProduct2.product
  exact RowTiles.dotGeneral_truncf none none .single _ _ _

/-- The layer's output, narrowed, as the next region finds it. -/
theorem features_val_3 : (W13 m ρ c (Proc.devRef .tc main_v122) : (⟨S20000x100, .bf16⟩ : BufTy).Contents (Elt Ideal))
    = truncf (F := Ideal) .bf16 (GraphLayers.hidden3 (a0 m c) (a1 m c) (a2 m c) (a3 m c) (a4 m c) (a5 m c) (a6 m c) (a7 m c)) bitsLt_bf16_f32 := by
  have h := carried_W10 m ρ c
  refine (features_3 (W10 m ρ c)).trans ?_
  rw [h.src, h.dst, h.wgt, h.arg7, product_2 m ρ c]
  rfl

/-- The next weight matrix, narrowed, as the next region finds it. -/
theorem matrix_val_3 : (W13 m ρ c (Proc.devRef .tc main_v123) : (⟨S100x2, .bf16⟩ : BufTy).Contents (Elt Ideal))
    = truncf (F := Ideal) .bf16 (a8 m c) bitsLt_bf16_f32 := by
  refine (matrix_3 (W10 m ρ c)).trans ?_
  rw [(carried_W10 m ρ c).arg8]

/-- After region 3 its output array is the host's product of the layer's input features by its weight matrix. -/
theorem product_3 : (W14 m ρ c (Proc.devRef .tc main_v124) : (⟨S20000x2, .f32⟩ : BufTy).Contents (Elt Ideal))
    = Host.dotGeneral (F := Ideal) (φ₁ := .f32) (φ₂ := .f32) (DotDims.plain 20000 100 2) none (GraphLayers.hidden3 (a0 m c) (a1 m c) (a2 m c) (a3 m c) (a4 m c) (a5 m c) (a6 m c) (a7 m c)) (a8 m c) := by
  refine ((W14_arr m ρ c 2).trans (TiledProduct3.final (V13 m ρ) c)).trans ?_
  show TiledProduct3.product (W13 m ρ c (Proc.devRef .tc main_v122)) (W13 m ρ c (Proc.devRef .tc main_v123)) = _
  rw [features_val_3 m ρ c, matrix_val_3 m ρ c]
  unfold TiledProduct3.product
  exact RowTiles.dotGeneral_truncf none none .single _ _ _

/-- **The result buffer after the last boundary is the network of the launch arguments.** -/
theorem result : (W15 m ρ c (Proc.devRef .tc main_v155) : (⟨S20000x2, .f32⟩ : BufTy).Contents (Elt Ideal))
    = GraphLayers.network (F := Ideal) (a0 m c) (a1 m c) (a2 m c) (a3 m c) (a4 m c) (a5 m c) (a6 m c) (a7 m c) (a8 m c) (a9 m c) := by
  have h := carried_W14 m ρ c
  refine (result_4 (W14 m ρ c)).trans ?_
  rw [h.src, h.dst, h.wgt, h.arg9, product_3 m ρ c]
  rfl

end Cert.KernelIdeal.KernelValue

end
-- ==== Proof.RefStages.lean ====
/-
  The reference program computes the network.

  Its stages, one host operation each, composed: the edge lists and the inverse square roots of the degrees are
  the functions of the edge array that the layers share; each layer's stage is the convolution of the host's
  product; the last stage is the network's output.
-/
import proofs.«115295_j12043088298517_1_alg».proof.Proof.Gen.ReferenceIdeal.Read
import proofs.«115295_j12043088298517_1_alg».proof.Proof.Network

noncomputable section

namespace Cert.ReferenceIdeal.RefStages

open Cert.ReferenceIdeal Cert.ReferenceIdeal.Read Cert.GraphLayers Idealize.ShloMosaic

variable {F : FTy → Type} [FloatOps F]

/-- The first layer's output stage. -/
theorem stage_hidden1 (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) :
    val_main_v49 (F := F) x0 x1 x2 x3 = hidden1 x0 x1 x2 x3 := rfl

/-- The second layer's output stage, over the first's. -/
theorem stage_hidden2 (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) (x4 : (⟨S2000x500, .f32⟩ : BufTy).Contents (Elt F)) (x5 : (⟨S500, .f32⟩ : BufTy).Contents (Elt F)) :
    val_main_v82 (F := F) x0 x1 x2 x3 x4 x5 = hidden2 x0 x1 x2 x3 x4 x5 := by
  show relu500 (conv500 (Host.dotGeneral (DotDims.plain 20000 2000 500) none (val_main_v49 (F := F) x0 x1 x2 x3) x4) (sources x1) (targets x1) (invSqrtDegree (targets x1)) x5) = _
  rw [stage_hidden1]; rfl

/-- The third layer's output stage, over the second's. -/
theorem stage_hidden3 (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) (x4 : (⟨S2000x500, .f32⟩ : BufTy).Contents (Elt F)) (x5 : (⟨S500, .f32⟩ : BufTy).Contents (Elt F)) (x6 : (⟨S500x100, .f32⟩ : BufTy).Contents (Elt F)) (x7 : (⟨S100, .f32⟩ : BufTy).Contents (Elt F)) :
    val_main_v115 (F := F) x0 x1 x2 x3 x4 x5 x6 x7 = hidden3 x0 x1 x2 x3 x4 x5 x6 x7 := by
  show relu100 (conv100 (Host.dotGeneral (DotDims.plain 20000 500 100) none (val_main_v82 (F := F) x0 x1 x2 x3 x4 x5) x6) (sources x1) (targets x1) (invSqrtDegree (targets x1)) x7) = _
  rw [stage_hidden2]; rfl

/-- The reference's result stage is the network's output. -/
theorem stage_network (x0 : (⟨S20000x3000, .f32⟩ : BufTy).Contents (Elt F)) (x1 : (⟨S2x100000, .i32⟩ : BufTy).Contents (Elt F)) (x2 : (⟨S3000x2000, .f32⟩ : BufTy).Contents (Elt F)) (x3 : (⟨S2000, .f32⟩ : BufTy).Contents (Elt F)) (x4 : (⟨S2000x500, .f32⟩ : BufTy).Contents (Elt F)) (x5 : (⟨S500, .f32⟩ : BufTy).Contents (Elt F)) (x6 : (⟨S500x100, .f32⟩ : BufTy).Contents (Elt F)) (x7 : (⟨S100, .f32⟩ : BufTy).Contents (Elt F)) (x8 : (⟨S100x2, .f32⟩ : BufTy).Contents (Elt F)) (x9 : (⟨S2, .f32⟩ : BufTy).Contents (Elt F)) :
    val_main_v147 (F := F) x0 x1 x2 x3 x4 x5 x6 x7 x8 x9 = network x0 x1 x2 x3 x4 x5 x6 x7 x8 x9 := by
  show conv2 (Host.dotGeneral (DotDims.plain 20000 100 2) none (val_main_v115 (F := F) x0 x1 x2 x3 x4 x5 x6 x7) x8) (sources x1) (targets x1) (invSqrtDegree (targets x1)) x9 = _
  rw [stage_hidden3]; rfl

end Cert.ReferenceIdeal.RefStages

end
-- ==== Proof.lean ====
/-
  A four-layer graph convolution network: a Pallas kernel program against its jnp reference, over the extended reals.

  Both programs compute, from node features `x` (20000 × 3000), an edge list and four weight matrices with their
  biases, `conv₄(relu(conv₃(relu(conv₂(relu(conv₁(x))))))`, where `convₖ(h) = A · (h · Wₖ) + bₖ` and `A` is the
  adjacency with self loops, each edge weighted by the inverse square roots of its endpoints' degrees. The host
  operations that build `A`'s action — the edge lists, the degrees, the gather of the source rows, the scaling, the
  sum over the edges into each target — and the biases and positive parts are the same operations in both programs,
  in the same order (`Proof/GraphLayers.lean`). They differ in the products `h · Wₖ` only: the reference takes the
  host's product; the kernel program narrows both factors to the matrix unit's input format and multiplies them in a
  pallas region, 800 rows at a time into a zero accumulator. On the extended reals a change of format is the
  identity, and a block of rows of a product is the product of that block of rows, entry by entry the same sum over
  the contracted position in the same order (`Proof/LibRowTiles.lean`, `Proof/TiledProduct0.lean` … `3`). So no
  law of arithmetic is used that could fail at an infinity, and the inputs' finiteness is not needed.

  The kernel program's run is its fifteen segments in order, ending with the result buffer at the fold of their
  effects (`Proof/KernelRun.lean`), and that fold read layer by layer is the network of the arguments
  (`Proof/HostStage0.lean` … `4`, `Proof/KernelValue.lean`); the reference's run ends at its stages' composed term,
  which is the same network (`Proof/RefStages.lean`). The idealized kernel program is the kernel program's own text
  read on the extended reals: there is nothing to preserve.
-/
import proofs.«115295_j12043088298517_1_alg».proof.Defs
import proofs.«115295_j12043088298517_1_alg».proof.Proof.Gen.Kernel
import proofs.«115295_j12043088298517_1_alg».proof.Proof.Gen.Kernel.Frame
import proofs.«115295_j12043088298517_1_alg».proof.Proof.Gen.KernelIdeal
import proofs.«115295_j12043088298517_1_alg».proof.Proof.Gen.KernelIdeal.Frame
import proofs.«115295_j12043088298517_1_alg».proof.Proof.Gen.ReferenceIdeal
import proofs.«115295_j12043088298517_1_alg».proof.Proof.Gen.ReferenceIdeal.Run
import proofs.«115295_j12043088298517_1_alg».proof.Proof.Gen.ReferenceIdeal.Read
import proofs.«115295_j12043088298517_1_alg».proof.Proof.Gen.Pre_finite_inputs
import proofs.«115295_j12043088298517_1_alg».proof.Proof.KernelRun
import proofs.«115295_j12043088298517_1_alg».proof.Proof.KernelValue
import proofs.«115295_j12043088298517_1_alg».proof.Proof.RefStages

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel program. -/
theorem preserves : Cert.preserves_Kernel_KernelIdeal := trivial

/-- From memories that agree on the arguments both programs end with the network of those arguments in their
    result buffers. -/
theorem algebraic : Cert.algebraic_KernelIdeal_ReferenceIdeal := by
  intro m ρ m' ρ' _ hagree
  refine ⟨fun c => Cert.GraphLayers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KernelValue.result m ρ c), (h c).2⟩)
      (Cert.KernelIdeal.FinalState.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v147_eq, Cert.ReferenceIdeal.RefStages.stage_network,
      e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
